-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x16, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x16, .f32⟩
  | .hbm, ⟨40, _⟩ => ⟨S_, .f32⟩
  | .hbm, ⟨41, _⟩ => ⟨S100000x16, .f32⟩
  | .hbm, ⟨42, _⟩ => ⟨S3300000x1, .i32⟩
  | .hbm, ⟨43, _⟩ => ⟨S100000x16, .f32⟩
  | .hbm, ⟨44, _⟩ => ⟨S1x16, .f32⟩
  | .hbm, ⟨45, _⟩ => ⟨S100000x7, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x7, .f32⟩
  | .hbm, ⟨55, _⟩ => ⟨S_, .f32⟩
  | .hbm, ⟨56, _⟩ => ⟨S100000x7, .f32⟩
  | .hbm, ⟨57, _⟩ => ⟨S3300000x1, .i32⟩
  | .hbm, ⟨58, _⟩ => ⟨S100000x7, .f32⟩
  | .hbm, ⟨59, _⟩ => ⟨S1x7, .f32⟩
  | .hbm, ⟨60, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x7, .f32⟩
  | .local _ .vmem, ⟨13, _⟩ => ⟨S5000x7, .f32⟩
  | .local _ .vmem, ⟨14, _⟩ => ⟨S5000x7, .f32⟩
  | .local _ .vmem, ⟨15, _⟩ => ⟨S5000x7, .f32⟩
  | .local _ .vmem, ⟨16, _⟩ => ⟨S5000x7, .f32⟩
  | .local _ .vmem, ⟨17, _⟩ => ⟨S5000x1, .f32⟩
  | .local _ .vmem, ⟨18, _⟩ => ⟨S5000x1, .f32⟩
  | .local _ .vmem, ⟨19, _⟩ => ⟨S1x7, .f32⟩
  | .local _ .vmem, ⟨20, _⟩ => ⟨S5000x7, .f32⟩
  | .local _ .vmem, ⟨21, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  scatter_S100000_S3300000x1_S3300000_n_0_0_1_wf : ScatterDims.WF S100000 S3300000x1 S3300000 [] [0] [0] 1
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x7.size a ≤ S16x7.size a
  hwx1_3 : ∀ i : grid1.Coords, EltTy.bits .f32 = 32 ∨ (Rect.block (s := S16x7) S16x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x7.size a ≤ S100000x7.size a
  hwx1_4 : ∀ i : grid1.Coords, EltTy.bits .f32 = 32 ∨ (Rect.block (s := S100000x7) S5000x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x7.size a ≤ S100000x7.size a
  hwx2_0 : ∀ i : grid2.Coords, EltTy.bits .f32 = 32 ∨ (Rect.block (s := S100000x7) S5000x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x7.size a ≤ S100000x7.size a
  hwx2_3 : ∀ i : grid2.Coords, EltTy.bits .f32 = 32 ∨ (Rect.block (s := S100000x7) S5000x7.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x7, .f32⟩
  | .hbm, ⟨72, _⟩ => ⟨S3300000x1, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x7, .f32⟩
  | .hbm, ⟨83, _⟩ => ⟨S3300000x7, .f32⟩
  | .hbm, ⟨84, _⟩ => ⟨S_, .f32⟩
  | .hbm, ⟨85, _⟩ => ⟨S100000x7, .f32⟩
  | .hbm, ⟨86, _⟩ => ⟨S3300000x1, .i32⟩
  | .hbm, ⟨87, _⟩ => ⟨S100000x7, .f32⟩
  | .hbm, ⟨88, _⟩ => ⟨S1x7, .f32⟩
  | .hbm, ⟨89, _⟩ => ⟨S100000x7, .f32⟩
  | .hbm, ⟨90, _⟩ => ⟨S100000x7, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x7, .f32⟩
  | .hbm, ⟨98, _⟩ => ⟨S100000x7, .f32⟩
  | .hbm, ⟨99, _⟩ => ⟨S100000x7, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x7, .f32⟩
  | .hbm, ⟨105, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named.  @main is eight segments: three stretches of host
  operations, then the three kernel regions with a stretch of host operations before each of the last two.
  The contents of every buffer at each segment boundary are a fold through @main from the launch memory; at
  the return every buffer that outlives the regions holds the last boundary's contents, the result array
  among them and the six argument arrays as launched.
-/
import proofs.«116140_j87875030876683_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the six argument arrays as launched. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.GcnRun

end
-- ==== Proof.Region0.lean ====
/-
  The first region's result array as one function of the arrays it reads.  The region walks twenty row
  tiles of 5000 rows: at tile t the body sees rows 5000·t … 5000·t + 4999 of the feature matrix and of the
  per-node scale column, and the whole weight matrix, and writes rows 5000·t … of the result.  So entry
  (i, j) of the result is entry (i mod 5000, j) of the body's value on tile i div 5000.
-/
import proofs.«116140_j87875030876683_2_alg».proof.Proof.Gen.KernelIdeal.Frame
import Idealize.ShloMosaic.Lib.Pipeline.Value

set_option maxRecDepth 16384

noncomputable section

namespace Cert.KernelIdeal.GcnRegions

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-- The tile a row of the 100000-row arrays lies in. -/
def tile0 (i0 : Nat) (h : i0 < 100000) : Fin cfg0.N := ⟨i0 / 5000, by rw [show cfg0.N = 20 from N_0]; omega⟩

/-- The body's value at tile `t`, from whole arrays: the three operands' blocks at `t`, then the body. -/
def tileOut0 (A0 : S100000x512.Idx → Elt F .f32) (A1 : S512x16.Idx → Elt F .f32) (A2 : S100000x1.Idx → Elt F .f32)
    (t : Fin cfg0.N) : Vec F S5000x16 .f32 :=
  k0_pay1 (((cfg0.win 0).blk t).view.read (Elt F) A0) (((cfg0.win 1).blk t).view.read (Elt F) A1)
    (((cfg0.win 2).blk t).view.read (Elt F) A2)

/-- A row's place inside its tile, with the column kept. -/
def inTile16 (i : S100000x16.Idx) : S5000x16.Idx := fun a => match a with
  | ⟨0, _⟩ => ⟨(i 0).val % 5000, Nat.mod_lt _ (by omega)⟩
  | ⟨1, _⟩ => ⟨(i 1).val, (i 1).isLt⟩

/-- THE REGION'S FUNCTION: entry `i` of the result is the body's value on row `i`'s tile, at the row's place in it. -/
def G0 (A0 : S100000x512.Idx → Elt F .f32) (A1 : S512x16.Idx → Elt F .f32) (A2 : S100000x1.Idx → Elt F .f32) :
    S100000x16.Idx → Elt F .f32 :=
  fun i => tileOut0 A0 A1 A2 (tile0 (i 0).val (i 0).isLt) (inTile16 i)

/-- The printed index maps over the grid: the row-tiled windows sit at block row `t`, block column 0; the weight
    matrix at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What tile `t` writes back is block `t` of the region's function of the arrays as the region finds them. -/
theorem flushed0 (c : Dev nD) (t : Fin cfg0.N) :
    (dat0 V c).flushed 3 t
      = ((cfg0.win 3).blk t).view.read (Elt F) (G0 (V c main_arg0) (V c main_arg2) (V c main_v16)) := by
  show (cfg0.win 3).cut (grid0.coords t) ((dat0 V c).after 3 t) = _
  rw [after0_3]
  unfold out0_3
  rw [View.canon_unit_zero hz0]
  simp only [View.ld_unit_zero (S := S5000x512) hz0, View.ld_unit_zero (S := S512x16) hz0,
    View.ld_unit_zero (S := S5000x1) hz0]
  obtain ⟨e0, e1, e2, e3, e4, e5, e6, e7⟩ := idx0 t
  funext j
  show k0_pay1 (iblk0 V c 0 t) (iblk0 V c 1 t) (iblk0 V c 2 t) j
    = G0 (V c main_arg0) (V c main_arg2) (V c main_v16) (((cfg0.win 3).blk t).view.emb j)
  have hj0 : (j 0).val < 5000 := (j 0).isLt
  have hj1 : (j 1).val < 16 := (j 1).isLt
  have ht : tile0 ((((cfg0.win 3).blk t).view.emb j) 0).val ((((cfg0.win 3).blk t).view.emb j) 0).isLt = t := by
    apply Fin.ext
    show (win0_3.index t (0 : Fin 2) * 5000 + 1 * (j 0).val) / 5000 = t.val
    omega
  have hl : inTile16 (((cfg0.win 3).blk t).view.emb j) = j := by
    funext a; apply Fin.ext
    match a with
    | ⟨0, _⟩ => show (win0_3.index t (0 : Fin 2) * 5000 + 1 * (j 0).val) % 5000 = (j 0).val; omega
    | ⟨1, _⟩ => dsimp only [inTile16]; show win0_3.index t (1 : Fin 2) * 16 + 1 * (j 1).val = (j 1).val; omega
  unfold G0
  rw [ht, hl]
  rfl

/-- An index of the result array lies in tile `t`'s block iff each coordinate is in the block's range. -/
theorem mem_blk0 (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v17).slice (win0_3.rect t)).set ↔ _
  rw [View.set_slice_whole, Rect.mem_set_unit]
  exact Iff.rfl

/-- THE RESULT ARRAY after the region: the region's function of the arrays the region found, whatever they are. -/
theorem final0 (c : Dev nD) :
    (dat0 V c).arrAt 3 cfg0.N = G0 (V c main_arg0) (V c main_arg2) (V c main_v16) :=
  (dat0 V c).arrAt_eq_of_cover 3 (G0 (V c main_arg0) (V c main_arg2) (V c main_v16))
    (fun t _ => flushed0 V c t) fun i => by
      have hi0 : (i 0).val < 100000 := (i 0).isLt
      have hi1 : (i 1).val < 16 := (i 1).isLt
      refine ⟨tile0 (i 0).val (i 0).isLt, flush0_3 _, ?_⟩
      rw [mem_blk0]
      obtain ⟨e0, e1, e2, e3, e4, e5, e6, e7⟩ := idx0 (tile0 (i 0).val (i 0).isLt)
      have hv : (tile0 (i 0).val (i 0).isLt).val = (i 0).val / 5000 := rfl
      intro a
      match a with
      | ⟨0, _⟩ =>
        show win0_3.index (tile0 (i 0).val (i 0).isLt) (0 : Fin 2) * 5000 ≤ (i 0).val
          ∧ (i 0).val < win0_3.index (tile0 (i 0).val (i 0).isLt) (0 : Fin 2) * 5000 + 5000
        omega
      | ⟨1, _⟩ =>
        show win0_3.index (tile0 (i 0).val (i 0).isLt) (1 : Fin 2) * 16 ≤ (i 1).val
          ∧ (i 1).val < win0_3.index (tile0 (i 0).val (i 0).isLt) (1 : Fin 2) * 16 + 16
        omega

end Cert.KernelIdeal.GcnRegions

end
-- ==== Proof.Region1.lean ====
/-
  The second region's result array as one function of the arrays it reads.  Twenty row tiles of 5000 rows:
  at tile t the body sees rows 5000·t … 5000·t + 4999 of the aggregated features and of the per-node scale
  column, and the whole bias row and weight matrix, and writes those rows of the result.  So entry (i, j) of the
  result is entry (i mod 5000, j) of the body's value on tile i div 5000.
-/
import proofs.«116140_j87875030876683_2_alg».proof.Proof.Gen.KernelIdeal.Frame
import Idealize.ShloMosaic.Lib.Pipeline.Value

set_option maxRecDepth 16384

noncomputable section

namespace Cert.KernelIdeal.GcnRegions

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-- The tile a row of the 100000-row arrays lies in. -/
def tile1 (i0 : Nat) (h : i0 < 100000) : Fin cfg1.N := ⟨i0 / 5000, by rw [show cfg1.N = 20 from N_1]; omega⟩

/-- The body's value at tile `t`, from whole arrays: the four operands' blocks at `t`, then the body (which reads
    the scale column twice). -/
def tileOut1 (A0 : S100000x16.Idx → Elt F .f32) (A1 : S100000x1.Idx → Elt F .f32) (A2 : S1x16.Idx → Elt F .f32)
    (A3 : S16x7.Idx → Elt F .f32) (t : Fin cfg1.N) : Vec F S5000x7 .f32 :=
  k1_pay1 (((cfg1.win 0).blk t).view.read (Elt F) A0) (((cfg1.win 1).blk t).view.read (Elt F) A1)
    (((cfg1.win 2).blk t).view.read (Elt F) A2) (((cfg1.win 3).blk t).view.read (Elt F) A3)
    (((cfg1.win 1).blk t).view.read (Elt F) A1)

/-- A row's place inside its tile, with the column kept. -/
def inTile7 (i : S100000x7.Idx) : S5000x7.Idx := fun a => match a with
  | ⟨0, _⟩ => ⟨(i 0).val % 5000, Nat.mod_lt _ (by omega)⟩
  | ⟨1, _⟩ => ⟨(i 1).val, (i 1).isLt⟩

/-- THE REGION'S FUNCTION: entry `i` of the result is the body's value on row `i`'s tile, at the row's place in it. -/
def G1 (A0 : S100000x16.Idx → Elt F .f32) (A1 : S100000x1.Idx → Elt F .f32) (A2 : S1x16.Idx → Elt F .f32)
    (A3 : S16x7.Idx → Elt F .f32) : S100000x7.Idx → Elt F .f32 :=
  fun i => tileOut1 A0 A1 A2 A3 (tile1 (i 0).val (i 0).isLt) (inTile7 i)

/-- The printed index maps over the grid: the row-tiled windows sit at block row `t`, block column 0; the bias row
    and the weight matrix at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What tile `t` writes back is block `t` of the region's function of the arrays as the region finds them. -/
theorem flushed1 (c : Dev nD) (t : Fin cfg1.N) :
    (dat1 V c).flushed 4 t
      = ((cfg1.win 4).blk t).view.read (Elt F) (G1 (V c main_v27) (V c main_v16) (V c main_v28) (V c main_arg4)) := by
  show (cfg1.win 4).cut (grid1.coords t) ((dat1 V c).after 4 t) = _
  rw [after1_4]
  unfold out1_4
  rw [View.canon_unit_zero hz1]
  simp only [View.ld_unit_zero (S := S5000x16) hz1, View.ld_unit_zero (S := S5000x1) hz1,
    View.ld_unit_zero (S := S1x16) hz1, View.ld_unit_zero (S := S16x7) hz1]
  obtain ⟨e0, e1, e2, e3, e4, e5, e6, e7, e8, e9⟩ := idx1 t
  funext j
  show k1_pay1 (iblk1 V c 0 t) (iblk1 V c 1 t) (iblk1 V c 2 t) (iblk1 V c 3 t) (iblk1 V c 1 t) j
    = G1 (V c main_v27) (V c main_v16) (V c main_v28) (V c main_arg4) (((cfg1.win 4).blk t).view.emb j)
  have hj0 : (j 0).val < 5000 := (j 0).isLt
  have hj1 : (j 1).val < 7 := (j 1).isLt
  have ht : tile1 ((((cfg1.win 4).blk t).view.emb j) 0).val ((((cfg1.win 4).blk t).view.emb j) 0).isLt = t := by
    apply Fin.ext
    show (win1_4.index t (0 : Fin 2) * 5000 + 1 * (j 0).val) / 5000 = t.val
    omega
  have hl : inTile7 (((cfg1.win 4).blk t).view.emb j) = j := by
    funext a; apply Fin.ext
    match a with
    | ⟨0, _⟩ => show (win1_4.index t (0 : Fin 2) * 5000 + 1 * (j 0).val) % 5000 = (j 0).val; omega
    | ⟨1, _⟩ => dsimp only [inTile7]; show win1_4.index t (1 : Fin 2) * 7 + 1 * (j 1).val = (j 1).val; omega
  unfold G1
  rw [ht, hl]
  rfl

/-- An index of the result array lies in tile `t`'s block iff each coordinate is in the block's range. -/
theorem mem_blk1 (t : Fin cfg1.N) (i : S100000x7.Idx) :
    i ∈ ((cfg1.win 4).blk t).view.set ↔ ∀ a : Fin 2, win1_4.index t a * S5000x7.size a ≤ (i a).val
      ∧ (i a).val < win1_4.index t a * S5000x7.size a + S5000x7.size a := by
  show i ∈ ((View.whole main_v29).slice (win1_4.rect t)).set ↔ _
  rw [View.set_slice_whole, Rect.mem_set_unit]
  exact Iff.rfl

/-- THE RESULT ARRAY after the region: the region's function of the arrays the region found, whatever they are. -/
theorem final1 (c : Dev nD) :
    (dat1 V c).arrAt 4 cfg1.N = G1 (V c main_v27) (V c main_v16) (V c main_v28) (V c main_arg4) :=
  (dat1 V c).arrAt_eq_of_cover 4 (G1 (V c main_v27) (V c main_v16) (V c main_v28) (V c main_arg4))
    (fun t _ => flushed1 V c t) fun i => by
      have hi0 : (i 0).val < 100000 := (i 0).isLt
      have hi1 : (i 1).val < 7 := (i 1).isLt
      refine ⟨tile1 (i 0).val (i 0).isLt, flush1_4 _, ?_⟩
      rw [mem_blk1]
      obtain ⟨e0, e1, e2, e3, e4, e5, e6, e7, e8, e9⟩ := idx1 (tile1 (i 0).val (i 0).isLt)
      have hv : (tile1 (i 0).val (i 0).isLt).val = (i 0).val / 5000 := rfl
      intro a
      match a with
      | ⟨0, _⟩ =>
        show win1_4.index (tile1 (i 0).val (i 0).isLt) (0 : Fin 2) * 5000 ≤ (i 0).val
          ∧ (i 0).val < win1_4.index (tile1 (i 0).val (i 0).isLt) (0 : Fin 2) * 5000 + 5000
        omega
      | ⟨1, _⟩ =>
        show win1_4.index (tile1 (i 0).val (i 0).isLt) (1 : Fin 2) * 7 ≤ (i 1).val
          ∧ (i 1).val < win1_4.index (tile1 (i 0).val (i 0).isLt) (1 : Fin 2) * 7 + 7
        omega

end Cert.KernelIdeal.GcnRegions

end
-- ==== Proof.Region2.lean ====
/-
  The third region's result array as one function of the arrays it reads.  Twenty row tiles of 5000 rows:
  at tile t the body sees rows 5000·t … 5000·t + 4999 of the aggregated class scores and of the per-node scale
  column, and the whole bias row, and writes those rows of the result.  So entry (i, j) of the result is entry
  (i mod 5000, j) of the body's value on tile i div 5000.
-/
import proofs.«116140_j87875030876683_2_alg».proof.Proof.Gen.KernelIdeal.Frame
import Idealize.ShloMosaic.Lib.Pipeline.Value

set_option maxRecDepth 16384

noncomputable section

namespace Cert.KernelIdeal.GcnRegions

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- The tile a row of the 100000-row arrays lies in. -/
def tile2 (i0 : Nat) (h : i0 < 100000) : Fin cfg2.N := ⟨i0 / 5000, by rw [show cfg2.N = 20 from N_2]; omega⟩

/-- The body's value at tile `t`, from whole arrays: the three operands' blocks at `t`, then the body. -/
def tileOut2 (A0 : S100000x7.Idx → Elt F .f32) (A1 : S100000x1.Idx → Elt F .f32) (A2 : S1x7.Idx → Elt F .f32)
    (t : Fin cfg2.N) : Vec F S5000x7 .f32 :=
  k2_pay1 (((cfg2.win 0).blk t).view.read (Elt F) A0) (((cfg2.win 1).blk t).view.read (Elt F) A1)
    (((cfg2.win 2).blk t).view.read (Elt F) A2)

/-- A row's place inside its tile, with the column kept. -/
def placeInTile (i : S100000x7.Idx) : S5000x7.Idx := fun a => match a with
  | ⟨0, _⟩ => ⟨(i 0).val % 5000, Nat.mod_lt _ (by omega)⟩
  | ⟨1, _⟩ => ⟨(i 1).val, (i 1).isLt⟩

/-- THE REGION'S FUNCTION: entry `i` of the result is the body's value on row `i`'s tile, at the row's place in it. -/
def G2 (A0 : S100000x7.Idx → Elt F .f32) (A1 : S100000x1.Idx → Elt F .f32) (A2 : S1x7.Idx → Elt F .f32) :
    S100000x7.Idx → Elt F .f32 :=
  fun i => tileOut2 A0 A1 A2 (tile2 (i 0).val (i 0).isLt) (placeInTile i)

/-- The printed index maps over the grid: the row-tiled windows sit at block row `t`, block column 0; the bias row
    at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What tile `t` writes back is block `t` of the region's function of the arrays as the region finds them. -/
theorem flushed2 (c : Dev nD) (t : Fin cfg2.N) :
    (dat2 V c).flushed 3 t
      = ((cfg2.win 3).blk t).view.read (Elt F) (G2 (V c main_v39) (V c main_v16) (V c main_v40)) := by
  show (cfg2.win 3).cut (grid2.coords t) ((dat2 V c).after 3 t) = _
  rw [after2_3]
  unfold out2_3
  rw [View.canon_unit_zero hz2]
  simp only [View.ld_unit_zero (S := S5000x7) hz2, View.ld_unit_zero (S := S5000x1) hz2,
    View.ld_unit_zero (S := S1x7) hz2]
  obtain ⟨e0, e1, e2, e3, e4, e5, e6, e7⟩ := idx2 t
  funext j
  show k2_pay1 (iblk2 V c 0 t) (iblk2 V c 1 t) (iblk2 V c 2 t) j
    = G2 (V c main_v39) (V c main_v16) (V c main_v40) (((cfg2.win 3).blk t).view.emb j)
  have hj0 : (j 0).val < 5000 := (j 0).isLt
  have hj1 : (j 1).val < 7 := (j 1).isLt
  have ht : tile2 ((((cfg2.win 3).blk t).view.emb j) 0).val ((((cfg2.win 3).blk t).view.emb j) 0).isLt = t := by
    apply Fin.ext
    show (win2_3.index t (0 : Fin 2) * 5000 + 1 * (j 0).val) / 5000 = t.val
    omega
  have hl : placeInTile (((cfg2.win 3).blk t).view.emb j) = j := by
    funext a; apply Fin.ext
    match a with
    | ⟨0, _⟩ => show (win2_3.index t (0 : Fin 2) * 5000 + 1 * (j 0).val) % 5000 = (j 0).val; omega
    | ⟨1, _⟩ => dsimp only [placeInTile]; show win2_3.index t (1 : Fin 2) * 7 + 1 * (j 1).val = (j 1).val; omega
  unfold G2
  rw [ht, hl]
  rfl

/-- An index of the result array lies in tile `t`'s block iff each coordinate is in the block's range. -/
theorem mem_blk2 (t : Fin cfg2.N) (i : S100000x7.Idx) :
    i ∈ ((cfg2.win 3).blk t).view.set ↔ ∀ a : Fin 2, win2_3.index t a * S5000x7.size a ≤ (i a).val
      ∧ (i a).val < win2_3.index t a * S5000x7.size a + S5000x7.size a := by
  show i ∈ ((View.whole main_v41).slice (win2_3.rect t)).set ↔ _
  rw [View.set_slice_whole, Rect.mem_set_unit]
  exact Iff.rfl

/-- THE RESULT ARRAY after the region: the region's function of the arrays the region found, whatever they are. -/
theorem final2 (c : Dev nD) :
    (dat2 V c).arrAt 3 cfg2.N = G2 (V c main_v39) (V c main_v16) (V c main_v40) :=
  (dat2 V c).arrAt_eq_of_cover 3 (G2 (V c main_v39) (V c main_v16) (V c main_v40))
    (fun t _ => flushed2 V c t) fun i => by
      have hi0 : (i 0).val < 100000 := (i 0).isLt
      have hi1 : (i 1).val < 7 := (i 1).isLt
      refine ⟨tile2 (i 0).val (i 0).isLt, flush2_3 _, ?_⟩
      rw [mem_blk2]
      obtain ⟨e0, e1, e2, e3, e4, e5, e6, e7⟩ := idx2 (tile2 (i 0).val (i 0).isLt)
      have hv : (tile2 (i 0).val (i 0).isLt).val = (i 0).val / 5000 := rfl
      intro a
      match a with
      | ⟨0, _⟩ =>
        show win2_3.index (tile2 (i 0).val (i 0).isLt) (0 : Fin 2) * 5000 ≤ (i 0).val
          ∧ (i 0).val < win2_3.index (tile2 (i 0).val (i 0).isLt) (0 : Fin 2) * 5000 + 5000
        omega
      | ⟨1, _⟩ =>
        show win2_3.index (tile2 (i 0).val (i 0).isLt) (1 : Fin 2) * 7 ≤ (i 1).val
          ∧ (i 1).val < win2_3.index (tile2 (i 0).val (i 0).isLt) (1 : Fin 2) * 7 + 7
        omega

end Cert.KernelIdeal.GcnRegions

end
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.KernelValue.lean ====
/-
  The idealized kernel's result array as one function of the arrays @main starts from.  @main alternates host
  operations and kernel regions; the buffer contents at each boundary are known (a fold through @main), each region
  leaves its result array at the region's function of the arrays it read, and a buffer that a stretch of host
  operations or a region does not write keeps its contents.  Walking the boundaries from the last back to the first
  gives the result as: the third region's function of (the second aggregation of the second region's function of
  (the first aggregation of the first region's function of the features, the first weights and the scale column)),
  where an aggregation gathers rows along the edge sources and adds them into the edge destinations.
-/
import proofs.«116140_j87875030876683_2_alg».proof.Proof.Region0
import proofs.«116140_j87875030876683_2_alg».proof.Proof.Region1
import proofs.«116140_j87875030876683_2_alg».proof.Proof.Region2
import proofs.«116140_j87875030876683_2_alg».proof.Proof.LibTypedRef
import Idealize.ShloMosaic.Lib.StableHlo.Run

set_option maxRecDepth 16384

noncomputable section

namespace Cert.KernelIdeal.GcnValue

open Cert.KernelIdeal Cert.KernelIdeal.Gen Cert.KernelIdeal.GcnRegions
open Idealize.ShloMosaic Idealize.ShloMosaic.TcCoe Idealize.SL.Sem Idealize.ShloMosaic.StableHlo
open Idealize.ShloMosaic.Pipeline (Dat Cfg Window)

variable {F : FTy → Type} [FloatOps F]

/-! ## The host operations between the regions, named -/

/-- An index vector with its negative entries wrapped by the number of nodes, as a column of start indices. -/
def wrapCol (s : (⟨S3300000, .i32⟩ : BufTy).Contents (Elt F)) : (⟨S3300000x1, .i32⟩ : BufTy).Contents (Elt F) :=
  broadcastInDim S3300000x1 ![0] bcast_S3300000_S3300000x1_0
    (select (cmpi CmpIPredicate.slt s (broadcastInDim S3300000 ![] bcast_S_S3300000 (constantI S_ 32 0#32)))
      (addi s (broadcastInDim S3300000 ![] bcast_S_S3300000 (constantI S_ 32 100000#32))) s)

/-- An index vector as a column of scatter indices, unwrapped. -/
def idxCol (s : (⟨S3300000, .i32⟩ : BufTy).Contents (Elt F)) : (⟨S3300000x1, .i32⟩ : BufTy).Contents (Elt F) :=
  broadcastInDim S3300000x1 ![0] bcast_S3300000_S3300000x1_0 s

/-- One aggregation of 16-wide rows: gather the rows named by the sources, add each into its destination's row. -/
def agg16 (H : (⟨S100000x16, .f32⟩ : BufTy).Contents (Elt F)) (src dst : (⟨S3300000, .i32⟩ : BufTy).Contents (Elt F)) :
    (⟨S100000x16, .f32⟩ : BufTy).Contents (Elt F) :=
  Host.scatterAdd scatter_S100000x16_S3300000x1_S3300000x16_1_0_0_1
    (broadcastInDim S100000x16 ![] bcast_S_S100000x16 (constant S_ FTy.f32 0#32)) (idxCol (F := F) dst)
    (Host.gather gather_S100000x16_S3300000x1_S3300000x16_1_0_n_n_0_1_116 H (wrapCol (F := F) src))

/-- One aggregation of 7-wide rows. -/
def agg7 (H : (⟨S100000x7, .f32⟩ : BufTy).Contents (Elt F)) (src dst : (⟨S3300000, .i32⟩ : BufTy).Contents (Elt F)) :
    (⟨S100000x7, .f32⟩ : BufTy).Contents (Elt F) :=
  Host.scatterAdd scatter_S100000x7_S3300000x1_S3300000x7_1_0_0_1
    (broadcastInDim S100000x7 ![] bcast_S_S100000x7 (constant S_ FTy.f32 0#32)) (idxCol (F := F) dst)
    (Host.gather gather_S100000x7_S3300000x1_S3300000x7_1_0_n_n_0_1_17 H (wrapCol (F := F) src))

/-- The edge sources (row 0 of the edge list) followed by one self loop per node. -/
def srcVec (EI : (⟨S2x3200000, .i32⟩ : BufTy).Contents (Elt F)) : (⟨S3300000, .i32⟩ : BufTy).Contents (Elt F) :=
  concatenate S3300000 0
    [⟨S3200000, shapeCast S3200000 (extractStridedSlice S1x3200000 ![0, 0] EI slices_S2x3200000_S1x3200000_0_0)
        shapeCasts_S1x3200000_S3200000⟩,
      ⟨S100000, iotaInDim S100000 32 0⟩]
    concatenates_S3200000_S100000_S3300000_d0

/-- The edge destinations (row 1 of the edge list) followed by one self loop per node. -/
def dstVec (EI : (⟨S2x3200000, .i32⟩ : BufTy).Contents (Elt F)) : (⟨S3300000, .i32⟩ : BufTy).Contents (Elt F) :=
  concatenate S3300000 0
    [⟨S3200000, shapeCast S3200000 (extractStridedSlice S1x3200000 ![1, 0] EI slices_S2x3200000_S1x3200000_1_0)
        shapeCasts_S1x3200000_S3200000⟩,
      ⟨S100000, iotaInDim S100000 32 0⟩]
    concatenates_S3200000_S100000_S3300000_d0

/-- A node's degree: one added into it per edge that ends there. -/
def degree (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ FTy.f32 0#32)) (idxCol (F := F) dst)
    (broadcastInDim S3300000 ![] bcast_S_S3300000 (constant S_ FTy.f32 1065353216#32))

/-- The per-node scale: the degree to the power −1/2 where the degree is positive, zero elsewhere. -/
def scaleVec (deg : (⟨S100000, .f32⟩ : BufTy).Contents (Elt F)) : (⟨S100000, .f32⟩ : BufTy).Contents (Elt F) :=
  select (cmpf (F := F) CmpFPredicate.ogt deg (broadcastInDim S100000 ![] bcast_S_S100000 (constant S_ FTy.f32 0#32)))
    (Host.powf deg (broadcastInDim S100000 ![] bcast_S_S100000 (constant S_ FTy.f32 3204448256#32)))
    (broadcastInDim S100000 ![] bcast_S_S100000 (id (constant S_ FTy.f32 0#32)))

/-- The scale as a column. -/
def scaleCol (deg : (⟨S100000, .f32⟩ : BufTy).Contents (Elt F)) : (⟨S100000x1, .f32⟩ : BufTy).Contents (Elt F) :=
  shapeCast S100000x1 (scaleVec deg) shapeCasts_S100000_S100000x1

/-- THE KERNEL'S FUNCTION of the six argument arrays. -/
def kernelOut (X : (⟨S100000x512, .f32⟩ : BufTy).Contents (Elt F)) (EI : (⟨S2x3200000, .i32⟩ : BufTy).Contents (Elt F))
    (W1 : (⟨S512x16, .f32⟩ : BufTy).Contents (Elt F)) (B1 : (⟨S16, .f32⟩ : BufTy).Contents (Elt F))
    (W2 : (⟨S16x7, .f32⟩ : BufTy).Contents (Elt F)) (B2 : (⟨S7, .f32⟩ : BufTy).Contents (Elt F)) :
    (⟨S100000x7, .f32⟩ : BufTy).Contents (Elt F) :=
  G2 (agg7 (G1 (agg16 (G0 X W1 (scaleCol (degree (dstVec (F := F) EI)))) (srcVec (F := F) EI) (dstVec (F := F) EI))
                (scaleCol (degree (dstVec (F := F) EI))) (shapeCast S1x16 B1 shapeCasts_S16_S1x16) W2)
            (srcVec (F := F) EI) (dstVec (F := F) EI))
      (scaleCol (degree (dstVec (F := F) EI))) (shapeCast S1x7 B2 shapeCasts_S7_S1x7)

variable (m : (ℓ : Loc nD τ sig) → Buf (Elt F) ℓ) (ρ : Dev nD → PrngReg)

/-! ## What each boundary holds -/

/-- After the first region its result array holds the region's function of what the region read. -/
theorem at4_v17 (c : Dev nD) : V4 m ρ c main_v17 = G0 (V3 m ρ c main_arg0) (V3 m ρ c main_arg2) (V3 m ρ c main_v16) :=
  (W4_arr m ρ c 3).trans (final0 (V3 m ρ) c)

theorem keep4_main_v3 (c : Dev nD) : V4 m ρ c main_v3 = V3 m ρ c main_v3 := W4_of_ne m ρ c main_v3 (by decide)
theorem keep4_main_v6 (c : Dev nD) : V4 m ρ c main_v6 = V3 m ρ c main_v6 := W4_of_ne m ρ c main_v6 (by decide)
theorem keep4_main_arg3 (c : Dev nD) : V4 m ρ c main_arg3 = V3 m ρ c main_arg3 := W4_of_ne m ρ c main_arg3 (by decide)
theorem keep4_main_arg4 (c : Dev nD) : V4 m ρ c main_arg4 = V3 m ρ c main_arg4 := W4_of_ne m ρ c main_arg4 (by decide)
theorem keep4_main_arg5 (c : Dev nD) : V4 m ρ c main_arg5 = V3 m ρ c main_arg5 := W4_of_ne m ρ c main_arg5 (by decide)
theorem keep4_main_v16 (c : Dev nD) : V4 m ρ c main_v16 = V3 m ρ c main_v16 :=
  (W4_arr m ρ c 2).trans (((dat0 (V3 m ρ) c).arrAt_in 2 rfl _).trans (A_eq0 (V3 m ρ) c 2))

/-- The first aggregation, from the contents the first region leaves. -/
theorem at5_v27 (c : Dev nD) : V5 m ρ c main_v27 = agg16 (V4 m ρ c main_v17) (V4 m ρ c main_v3) (V4 m ρ c main_v6) := by
  show StableHlo.after hostOps1 (W4 m ρ c) (Proc.devRef .tc main_v27) = _
  after_results
  rfl

/-- The first bias as a row. -/
theorem at5_v28 (c : Dev nD) : V5 m ρ c main_v28 = shapeCast S1x16 (V4 m ρ c main_arg3) shapeCasts_S16_S1x16 := by
  show StableHlo.after hostOps1 (W4 m ρ c) (Proc.devRef .tc main_v28) = _
  after_results
  rfl

theorem keep5_main_v3 (c : Dev nD) : V5 m ρ c main_v3 = V4 m ρ c main_v3 :=
  StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
theorem keep5_main_v6 (c : Dev nD) : V5 m ρ c main_v6 = V4 m ρ c main_v6 :=
  StableHlo.after_of_forall_not_mem (b := Proc.devRef .tc main_v6) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
theorem keep5_main_v16 (c : Dev nD) : V5 m ρ c main_v16 = V4 m ρ c main_v16 :=
  StableHlo.after_of_forall_not_mem (b := Proc.devRef .tc main_v16) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
theorem keep5_main_arg4 (c : Dev nD) : V5 m ρ c main_arg4 = V4 m ρ c main_arg4 :=
  StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
theorem keep5_main_arg5 (c : Dev nD) : V5 m ρ c main_arg5 = V4 m ρ c main_arg5 :=
  StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- After the second region its result array holds the region's function of what the region read. -/
theorem at6_v29 (c : Dev nD) :
    V6 m ρ c main_v29 = G1 (V5 m ρ c main_v27) (V5 m ρ c main_v16) (V5 m ρ c main_v28) (V5 m ρ c main_arg4) :=
  (W6_arr m ρ c 4).trans (final1 (V5 m ρ) c)

theorem keep6_main_v3 (c : Dev nD) : V6 m ρ c main_v3 = V5 m ρ c main_v3 := W6_of_ne m ρ c main_v3 (by decide)
theorem keep6_main_v6 (c : Dev nD) : V6 m ρ c main_v6 = V5 m ρ c main_v6 := W6_of_ne m ρ c main_v6 (by decide)
theorem keep6_main_arg5 (c : Dev nD) : V6 m ρ c main_arg5 = V5 m ρ c main_arg5 := W6_of_ne m ρ c main_arg5 (by decide)
theorem keep6_main_v16 (c : Dev nD) : V6 m ρ c main_v16 = V5 m ρ c main_v16 :=
  (W6_arr m ρ c 1).trans (((dat1 (V5 m ρ) c).arrAt_in 1 rfl _).trans (A_eq1 (V5 m ρ) c 1))

/-- The second aggregation, from the contents the second region leaves. -/
theorem at7_v39 (c : Dev nD) : V7 m ρ c main_v39 = agg7 (V6 m ρ c main_v29) (V6 m ρ c main_v3) (V6 m ρ c main_v6) := by
  show StableHlo.after hostOps2 (W6 m ρ c) (Proc.devRef .tc main_v39) = _
  after_results
  rfl

/-- The second bias as a row. -/
theorem at7_v40 (c : Dev nD) : V7 m ρ c main_v40 = shapeCast S1x7 (V6 m ρ c main_arg5) shapeCasts_S7_S1x7 := by
  show StableHlo.after hostOps2 (W6 m ρ c) (Proc.devRef .tc main_v40) = _
  after_results
  rfl

theorem keep7_main_v16 (c : Dev nD) : V7 m ρ c main_v16 = V6 m ρ c main_v16 :=
  StableHlo.after_of_forall_not_mem (b := Proc.devRef .tc main_v16) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-- After the third region its result array holds the region's function of what the region read. -/
theorem at8_v41 (c : Dev nD) : V8 m ρ c main_v41 = G2 (V7 m ρ c main_v39) (V7 m ρ c main_v16) (V7 m ρ c main_v40) :=
  (W8_arr m ρ c 3).trans (final2 (V7 m ρ) c)

/-! ## The result from the contents at the first region's entry -/

/-- THE RESULT ARRAY, from the arrays as the first region finds them: the features, the two weight matrices, the two
    biases, the source and destination index vectors and the scale column. -/
theorem result_from_entry (c : Dev nD) :
    W8 m ρ c (Proc.devRef .tc main_v41)
      = G2 (agg7 (G1 (agg16 (G0 (V3 m ρ c main_arg0) (V3 m ρ c main_arg2) (V3 m ρ c main_v16))
                          (V3 m ρ c main_v3) (V3 m ρ c main_v6))
                    (V3 m ρ c main_v16) (shapeCast S1x16 (V3 m ρ c main_arg3) shapeCasts_S16_S1x16) (V3 m ρ c main_arg4))
                (V3 m ρ c main_v3) (V3 m ρ c main_v6))
          (V3 m ρ c main_v16) (shapeCast S1x7 (V3 m ρ c main_arg5) shapeCasts_S7_S1x7) := by
  show V8 m ρ c main_v41 = _
  rw [at8_v41, at7_v39, at7_v40, keep7_main_v16, at6_v29, keep6_main_v3, keep6_main_v6, keep6_main_arg5, keep6_main_v16,
    at5_v27, at5_v28, keep5_main_v3, keep5_main_v6, keep5_main_v16, keep5_main_arg4, keep5_main_arg5,
    at4_v17, keep4_main_v3, keep4_main_v6, keep4_main_arg3, keep4_main_arg4, keep4_main_arg5, keep4_main_v16]

/-! ## The contents at the first region's entry, from the launch memory -/

theorem at3_main_arg0 (c : Dev nD) : V3 m ρ c main_arg0 = m ((c.tc : Thread nD τ).loc main_arg0) := by
  dsimp only [V3, W3, W2, W1]
  after_results
theorem at3_main_arg2 (c : Dev nD) : V3 m ρ c main_arg2 = m ((c.tc : Thread nD τ).loc main_arg2) := by
  dsimp only [V3, W3, W2, W1]
  after_results
theorem at3_main_arg3 (c : Dev nD) : V3 m ρ c main_arg3 = m ((c.tc : Thread nD τ).loc main_arg3) := by
  dsimp only [V3, W3, W2, W1]
  after_results
theorem at3_main_arg4 (c : Dev nD) : V3 m ρ c main_arg4 = m ((c.tc : Thread nD τ).loc main_arg4) := by
  dsimp only [V3, W3, W2, W1]
  after_results
theorem at3_main_arg5 (c : Dev nD) : V3 m ρ c main_arg5 = m ((c.tc : Thread nD τ).loc main_arg5) := by
  dsimp only [V3, W3, W2, W1]
  after_results

theorem at3_v3 (c : Dev nD) : V3 m ρ c main_v3 = srcVec (F := F) (m ((c.tc : Thread nD τ).loc main_arg1)) := by
  dsimp only [V3, W3, W2, W1]
  after_results
  rfl

theorem at3_v6 (c : Dev nD) : V3 m ρ c main_v6 = dstVec (F := F) (m ((c.tc : Thread nD τ).loc main_arg1)) := by
  dsimp only [V3, W3, W2, W1]
  after_results
  rfl

set_option maxHeartbeats 2000000 in
theorem at3_v16 (c : Dev nD) : V3 m ρ c main_v16 = scaleCol (degree (dstVec (F := F) (m ((c.tc : Thread nD τ).loc main_arg1)))) := by
  dsimp only [V3, W3, W2, W1]
  after_results
  simp only [Cert.LibTypedRef.ofBuf_toBuf]
  rfl

/-- THE RESULT ARRAY of the run, from the launch memory: the kernel's function of the six argument arrays. -/
theorem result_eq (c : Dev nD) :
    W8 m ρ c (Proc.devRef .tc main_v41)
      = kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [result_from_entry, at3_main_arg0, at3_main_arg2, at3_main_arg3, at3_main_arg4, at3_main_arg5, at3_v3, at3_v6, at3_v16]
  rfl

end Cert.KernelIdeal.GcnValue

end
-- ==== Proof.RefRun.lean ====
/-
  The reference program's @main as the list of its 100 host operations (an outlined function's operations stand in its
  call's place, over typed references), and its run read back: on every device every weakly fair execution terminates
  with the result buffer at the operations' composed pure term of the arguments' launch contents, the six arguments
  unchanged. The composed term is `res`: the operations' composition literally, every shared intermediate value written
  out at each of its uses.
-/
import proofs.«116140_j87875030876683_2_alg».proof.Proof.Gen.ReferenceIdeal
import proofs.«116140_j87875030876683_2_alg».proof.Proof.LibTypedRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 100 operations, in order (a called function's operations stand in its call's place, spelt `TRef.…`). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v30 main_v32 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v31 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v40 main_v39 main_v41 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v42 (broadcastInDim S100000x16 ![] bcast_S_S100000x16 : (⟨S_, .f32⟩ : BufTy).Contents (Elt F) → (⟨S100000x16, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf,
    binary main_v48 main_arg4 main_v49 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    unary main_v30 main_v50 (broadcastInDim S3300000x1 ![0] bcast_S3300000_S3300000x1_0 : (⟨S3300000, .f32⟩ : BufTy).Contents (Elt F) → (⟨S3300000x1, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v49 main_v56 main_v57 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v50 main_v58 (broadcastInDim S3300000x7 ![0, 1] bcast_S3300000x1_S3300000x7_0_1 : (⟨S3300000x1, .f32⟩ : BufTy).Contents (Elt F) → (⟨S3300000x7, .f32⟩ : BufTy).Contents (Elt F)),
    binary main_v58 main_v57 main_v59 (mulf : (⟨S3300000x7, .f32⟩ : BufTy).Contents (Elt F) → (⟨S3300000x7, .f32⟩ : BufTy).Contents (Elt F) → (⟨S3300000x7, .f32⟩ : BufTy).Contents (Elt F)),
    nullary main_cst_12 (constant S_ .f32 0x00000000#32),
    unary main_cst_12 main_v60 (broadcastInDim S100000x7 ![] bcast_S_S100000x7 : (⟨S_, .f32⟩ : BufTy).Contents (Elt F) → (⟨S100000x7, .f32⟩ : BufTy).Contents (Elt F)),
    unary main_v6 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg5 main_v63 (broadcastInDim S1x7 ![1] bcast_S7_S1x7_1 : (⟨S7, .f32⟩ : BufTy).Contents (Elt F) → (⟨S1x7, .f32⟩ : BufTy).Contents (Elt F)),
    unary main_v63 main_v64 (broadcastInDim S100000x7 ![0, 1] bcast_S1x7_S100000x7_0_1 : (⟨S1x7, .f32⟩ : BufTy).Contents (Elt F) → (⟨S100000x7, .f32⟩ : BufTy).Contents (Elt F)),
    binary main_v62 main_v64 main_v65 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call2_cst) (constant S_ .f32 0xFF800000#32),
    TRef.binary (TRef.of (T := ⟨S100000x7, .f32⟩) main_v65) (TRef.of (T := ⟨S_, .f32⟩) main_call2_cst) (TRef.of (T := ⟨S100000, .f32⟩) main_call2_v0) (fun x v => Host.reduce FloatOps.maximumf x v reducesTo_S100000x7_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x7, .f32⟩) main_call2_v4) (broadcastInDim S100000x7 ![0, 1] bcast_S100000x1_S100000x7_0_1),
    TRef.binary (TRef.of (T := ⟨S100000x7, .f32⟩) main_v65) (TRef.of (T := ⟨S100000x7, .f32⟩) main_call2_v4) (TRef.of (T := ⟨S100000x7, .f32⟩) main_call2_v5) subf,
    TRef.unary (TRef.of (T := ⟨S100000x7, .f32⟩) main_call2_v5) (TRef.of (T := ⟨S100000x7, .f32⟩) main_call2_v6) Host.exp,
    TRef.nullary (TRef.of (T := ⟨S_, .f32⟩) main_call2_cst_1) (constant S_ .f32 0x00000000#32),
    TRef.binary (TRef.of (T := ⟨S100000x7, .f32⟩) main_call2_v6) (TRef.of (T := ⟨S_, .f32⟩) main_call2_cst_1) (TRef.of (T := ⟨S100000, .f32⟩) main_call2_v7) (fun x v => Host.reduceAdd x v reducesTo_S100000x7_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x7, .f32⟩) main_call2_v10) (broadcastInDim S100000x7 ![0, 1] bcast_S100000x1_S100000x7_0_1),
    TRef.binary (TRef.of (T := ⟨S100000x7, .f32⟩) main_call2_v5) (TRef.of (T := ⟨S100000x7, .f32⟩) main_call2_v10) (TRef.of (T := ⟨S100000x7, .f32⟩) main_v66) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- `main_v66`'s composed term of the arguments: the operations' composition, nothing shared. -/
def res (m : (ℓ : Loc nD τ sig) → Buf (Elt F) ℓ) (c : Dev nD) : Buf (Elt F) ((c.tc : Thread nD τ).loc main_v66) :=
  subf (subf (addf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x7 ![0, 1] bcast_S3300000x1_S3300000x7_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x7_S3300000x1_S3300000x7_1_0_n_n_0_1_17 (Host.dotGeneral dot_S100000x16_S16x7_S100000x7_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x16_S3300000x1_S3300000x16_1_0_n_n_0_1_116 (Host.dotGeneral dot_S100000x512_S512x16_S100000x16_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant S_ .f32 0x00000000#32))) (m ((c.tc : Thread nD τ).loc main_arg4))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x7 ![0, 1] bcast_S1x7_S100000x7_0_1 (broadcastInDim S1x7 ![1] bcast_S7_S1x7_1 (m ((c.tc : Thread nD τ).loc main_arg5))))) (broadcastInDim S100000x7 ![0, 1] bcast_S100000x1_S100000x7_0_1 (broadcastInDim S100000x1 ![0] bcast_S100000_S100000x1_0 (maximumf (broadcastInDim S100000 ![] bcast_S_S100000 (constant S_ .f32 0xFF800000#32)) (Host.reduce FloatOps.maximumf (addf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x7 ![0, 1] bcast_S3300000x1_S3300000x7_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x7_S3300000x1_S3300000x7_1_0_n_n_0_1_17 (Host.dotGeneral dot_S100000x16_S16x7_S100000x7_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x16_S3300000x1_S3300000x16_1_0_n_n_0_1_116 (Host.dotGeneral dot_S100000x512_S512x16_S100000x16_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant S_ .f32 0x00000000#32))) (m ((c.tc : Thread nD τ).loc main_arg4))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x7 ![0, 1] bcast_S1x7_S100000x7_0_1 (broadcastInDim S1x7 ![1] bcast_S7_S1x7_1 (m ((c.tc : Thread nD τ).loc main_arg5))))) (constant S_ .f32 0xFF800000#32) reducesTo_S100000x7_S100000_d1 h_S_))))) (broadcastInDim S100000x7 ![0, 1] bcast_S100000x1_S100000x7_0_1 (Host.log (broadcastInDim S100000x1 ![0] bcast_S100000_S100000x1_0 (Host.reduceAdd (Host.exp (subf (addf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x7 ![0, 1] bcast_S3300000x1_S3300000x7_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x7_S3300000x1_S3300000x7_1_0_n_n_0_1_17 (Host.dotGeneral dot_S100000x16_S16x7_S100000x7_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x16_S3300000x1_S3300000x16_1_0_n_n_0_1_116 (Host.dotGeneral dot_S100000x512_S512x16_S100000x16_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant S_ .f32 0x00000000#32))) (m ((c.tc : Thread nD τ).loc main_arg4))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x7 ![0, 1] bcast_S1x7_S100000x7_0_1 (broadcastInDim S1x7 ![1] bcast_S7_S1x7_1 (m ((c.tc : Thread nD τ).loc main_arg5))))) (broadcastInDim S100000x7 ![0, 1] bcast_S100000x1_S100000x7_0_1 (broadcastInDim S100000x1 ![0] bcast_S100000_S100000x1_0 (maximumf (broadcastInDim S100000 ![] bcast_S_S100000 (constant S_ .f32 0xFF800000#32)) (Host.reduce FloatOps.maximumf (addf (Host.scatterAdd scatter_S100000x7_S3300000x1_S3300000x7_1_0_0_1 (broadcastInDim S100000x7 ![] bcast_S_S100000x7 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x7 ![0, 1] bcast_S3300000x1_S3300000x7_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x7_S3300000x1_S3300000x7_1_0_n_n_0_1_17 (Host.dotGeneral dot_S100000x16_S16x7_S100000x7_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.powf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0xBF000000#32))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))) (Host.gather gather_S100000x16_S3300000x1_S3300000x16_1_0_n_n_0_1_116 (Host.dotGeneral dot_S100000x512_S512x16_S100000x16_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x16 ![0, 1] bcast_S1x16_S100000x16_0_1 (broadcastInDim S1x16 ![1] bcast_S16_S1x16_1 (m ((c.tc : Thread nD τ).loc main_arg3))))) (broadcastInDim S100000x16 ![] bcast_S_S100000x16 (constant S_ .f32 0x00000000#32))) (m ((c.tc : Thread nD τ).loc main_arg4))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))))) (broadcastInDim S100000x7 ![0, 1] bcast_S1x7_S100000x7_0_1 (broadcastInDim S1x7 ![1] bcast_S7_S1x7_1 (m ((c.tc : Thread nD τ).loc main_arg5))))) (constant S_ .f32 0xFF800000#32) reducesTo_S100000x7_S100000_d1 h_S_)))))) (constant S_ .f32 0x00000000#32) reducesTo_S100000x7_S100000_d1 h_S_))))

set_option maxRecDepth 8192 in
set_option maxHeartbeats 40000000 in
/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v66).trans (by
        after_results_simp
        simp only [Cert.LibTypedRef.ofBuf_toBuf]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's function in structured form. The run of the reference states its result as one composed term in
  which every shared intermediate value is written out at each of its uses. Here the same composition is given as
  named pieces — the source and destination index vectors with the self-loops appended, the in-degree, the per-node
  scale (degree to the power −1/2, zero where the degree is not positive), the per-edge norm, one propagation step
  (gather the rows along the edges, scale, scatter-add into the destination rows, add the bias) at sixteen and at
  seven columns, relu, and the row-wise log-softmax — and the composed term is shown equal to their composition:
  every piece is the operations' composition exactly as it stands inside the composed term.
-/
import proofs.«116140_j87875030876683_2_alg».proof.Proof.RefRun

noncomputable section

namespace Cert.ReferenceIdeal.GcnRef

open Cert.ReferenceIdeal Cert.ReferenceIdeal.Gen Idealize.ShloMosaic Idealize.ShloMosaic.TcCoe Idealize.SL.Sem Idealize.ShloMosaic.StableHlo

variable {F : FTy → Type} [FloatOps F]

/-- The source index of every edge: row 0 of the edge list, then the 100000 self-loops `0, 1, …`. -/
def srcVec (EI : (⟨S2x3200000, .i32⟩ : BufTy).Contents (Elt F)) : (⟨S3300000, .i32⟩ : BufTy).Contents (Elt F) :=
  concatenate S3300000 0 [⟨S3200000, (shapeCast _ (extractStridedSlice S1x3200000 ![0, 0] EI slices_S2x3200000_S1x3200000_0_0) shapeCasts_S1x3200000_S3200000)⟩, ⟨S100000, (iotaInDim S100000 32 0)⟩] concatenates_S3200000_S100000_S3300000_d0

/-- The destination index of every edge: row 1 of the edge list, then the 100000 self-loops. -/
def dstVec (EI : (⟨S2x3200000, .i32⟩ : BufTy).Contents (Elt F)) : (⟨S3300000, .i32⟩ : BufTy).Contents (Elt F) :=
  concatenate S3300000 0 [⟨S3200000, (shapeCast _ (extractStridedSlice S1x3200000 ![1, 0] EI slices_S2x3200000_S1x3200000_1_0) shapeCasts_S1x3200000_S3200000)⟩, ⟨S100000, (iotaInDim S100000 32 0)⟩] concatenates_S3200000_S100000_S3300000_d0

/-- An index vector as a one-column matrix (a scatter's index operand). -/
def idxCol (s : (⟨S3300000, .i32⟩ : BufTy).Contents (Elt F)) : (⟨S3300000x1, .i32⟩ : BufTy).Contents (Elt F) :=
  broadcastInDim S3300000x1 ![0] bcast_S3300000_S3300000x1_0 s

/-- An index vector with its negative entries moved up by the number of nodes, as a one-column matrix (a gather's
    index operand). -/
def wrapCol (s : (⟨S3300000, .i32⟩ : BufTy).Contents (Elt F)) : (⟨S3300000x1, .i32⟩ : BufTy).Contents (Elt F) :=
  broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)

/-- The in-degree of every node: ones scatter-added along the destination indices into zeros. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (idxCol (F := F) dst) (broadcastInDim S3300000 ![] bcast_S_S3300000 (constant S_ .f32 0x3F800000#32))

/-- The per-node scale: the degree to the power −1/2 where the degree is greater than zero, zero elsewhere. -/
def scaleVec (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32))) (Host.powf deg (broadcastInDim S100000 ![] bcast_S_S100000 (constant S_ .f32 0xBF000000#32))) (broadcastInDim S100000 ![] bcast_S_S100000 (id (constant S_ .f32 0x00000000#32)))

/-- The per-edge norm: the scale at the edge's source times the scale at its destination. -/
def edgeNorm (dinv : (⟨S100000, .f32⟩ : BufTy).Contents (Elt F)) (src dst : (⟨S3300000, .i32⟩ : BufTy).Contents (Elt F)) : (⟨S3300000, .f32⟩ : BufTy).Contents (Elt F) :=
  mulf (Host.gather gather_S100000_S3300000x1_S3300000_n_0_n_n_0_1_1 dinv (wrapCol (F := F) src)) (Host.gather gather_S100000_S3300000x1_S3300000_n_0_n_n_0_1_1 dinv (wrapCol (F := F) dst))

/-- One propagation step at sixteen columns: the rows of `H` gathered at the edges' sources, each scaled by its
    edge's norm, scatter-added into zeros at the edges' destinations; then the bias added to every row. -/
def conv16 (H : (⟨S100000x16, .f32⟩ : BufTy).Contents (Elt F)) (nrm : (⟨S3300000, .f32⟩ : BufTy).Contents (Elt F)) (src dst : (⟨S3300000, .i32⟩ : BufTy).Contents (Elt F)) (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (idxCol (F := F) dst) (mulf (broadcastInDim S3300000x16 ![0, 1] bcast_S3300000x1_S3300000x16_0_1 (broadcastInDim S3300000x1 ![0] bcast_S3300000_S3300000x1_0 nrm)) (Host.gather gather_S100000x16_S3300000x1_S3300000x16_1_0_n_n_0_1_116 H (wrapCol (F := F) src)))) (broadcastInDim S100000x16 ![0, 1] bcast_S1x16_S100000x16_0_1 (broadcastInDim S1x16 ![1] bcast_S16_S1x16_1 b))

/-- One propagation step at seven columns. -/
def conv7 (H : (⟨S100000x7, .f32⟩ : BufTy).Contents (Elt F)) (nrm : (⟨S3300000, .f32⟩ : BufTy).Contents (Elt F)) (src dst : (⟨S3300000, .i32⟩ : BufTy).Contents (Elt F)) (b : (⟨S7, .f32⟩ : BufTy).Contents (Elt F)) : (⟨S100000x7, .f32⟩ : BufTy).Contents (Elt F) :=
  addf (Host.scatterAdd scatter_S100000x7_S3300000x1_S3300000x7_1_0_0_1 (broadcastInDim S100000x7 ![] bcast_S_S100000x7 (constant S_ .f32 0x00000000#32)) (idxCol (F := F) dst) (mulf (broadcastInDim S3300000x7 ![0, 1] bcast_S3300000x1_S3300000x7_0_1 (broadcastInDim S3300000x1 ![0] bcast_S3300000_S3300000x1_0 nrm)) (Host.gather gather_S100000x7_S3300000x1_S3300000x7_1_0_n_n_0_1_17 H (wrapCol (F := F) src)))) (broadcastInDim S100000x7 ![0, 1] bcast_S1x7_S100000x7_0_1 (broadcastInDim S1x7 ![1] bcast_S7_S1x7_1 b))

/-- The maximum with zero, entry by entry. -/
def relu (x : (⟨S100000x16, .f32⟩ : BufTy).Contents (Elt F)) : (⟨S100000x16, .f32⟩ : BufTy).Contents (Elt F) :=
  maximumf x (broadcastInDim S100000x16 ![] bcast_S_S100000x16 (constant S_ .f32 0x00000000#32))

/-- The row-wise log-softmax: every row minus its maximum (the maximum taken with −∞ first), minus the logarithm of
    the row sum of the exponentials of those differences. -/
def logSoftmax (L : (⟨S100000x7, .f32⟩ : BufTy).Contents (Elt F)) : (⟨S100000x7, .f32⟩ : BufTy).Contents (Elt F) :=
  subf (subf L (broadcastInDim S100000x7 ![0, 1] bcast_S100000x1_S100000x7_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x7_S100000_d1 h_S_))))) (broadcastInDim S100000x7 ![0, 1] bcast_S100000x1_S100000x7_0_1 (Host.log (broadcastInDim S100000x1 ![0] bcast_S100000_S100000x1_0 (Host.reduceAdd (Host.exp (subf L (broadcastInDim S100000x7 ![0, 1] bcast_S100000x1_S100000x7_0_1 (broadcastInDim S100000x1 ![0] bcast_S100000_S100000x1_0 (maximumf (broadcastInDim S100000 ![] bcast_S_S100000 (constant S_ .f32 0xFF800000#32)) (Host.reduce FloatOps.maximumf L (constant S_ .f32 0xFF800000#32) reducesTo_S100000x7_S100000_d1 h_S_)))))) (constant S_ .f32 0x00000000#32) reducesTo_S100000x7_S100000_d1 h_S_))))

/-- The reference's function of its six arguments: two propagation steps with the edge norm of the graph, relu between
    them, log-softmax after them. -/
def refOut (X : (⟨S100000x512, .f32⟩ : BufTy).Contents (Elt F)) (EI : (⟨S2x3200000, .i32⟩ : BufTy).Contents (Elt F)) (W1 : (⟨S512x16, .f32⟩ : BufTy).Contents (Elt F)) (B1 : (⟨S16, .f32⟩ : BufTy).Contents (Elt F)) (W2 : (⟨S16x7, .f32⟩ : BufTy).Contents (Elt F)) (B2 : (⟨S7, .f32⟩ : BufTy).Contents (Elt F)) : (⟨S100000x7, .f32⟩ : BufTy).Contents (Elt F) :=
  logSoftmax (conv7 (Host.dotGeneral dot_S100000x16_S16x7_S100000x7_1_0_0_1_n_n none (relu (conv16 (Host.dotGeneral dot_S100000x512_S512x16_S100000x16_1_0_0_1_n_n none X W1) (edgeNorm (scaleVec (degree (dstVec (F := F) EI))) (srcVec (F := F) EI) (dstVec (F := F) EI)) (srcVec (F := F) EI) (dstVec (F := F) EI) B1)) W2) (edgeNorm (scaleVec (degree (dstVec (F := F) EI))) (srcVec (F := F) EI) (dstVec (F := F) EI)) (srcVec (F := F) EI) (dstVec (F := F) EI) B2)

set_option maxRecDepth 8192 in
set_option maxHeartbeats 4000000 in
/-- The run's composed term is the structured composition at the arguments' launch contents. -/
theorem res_eq (m : (ℓ : Loc nD τ sig) → Buf (Elt F) ℓ) (c : Dev nD) :
    RefRun.res (F := F) m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rfl

/-- On every device, for any float values, from any memory with zero counters: every weakly fair execution of
    @main terminates with the result at the structured composition of the arguments and the arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res_eq m c), (h c).2⟩) (RefRun.run m ρ)

end Cert.ReferenceIdeal.GcnRef

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.FiniteInputs.lean ====
/- From the finiteness precondition to "every float entry is a real number".

   The precondition is the conjunction, over the five float arguments, of `all (|a| < +∞)`: for each
   argument the absolute value of every entry is compared with the word of `+∞`, the 1-bit results are
   reduced by `and` from `1`, and the five reductions are joined by `and`.  If the whole is `1` then each
   reduction is `1`, so each comparison is `1`; and over the extended reals `max a (-a) < ⊤` rules out
   `a = ⊤` and `a = ⊥` (both have `max a (-a) = ⊤`), which leaves the real numbers.  The integer
   argument is not constrained. -/
import proofs.«116140_j87875030876683_2_alg».proof.Pre_finite_inputs
import proofs.«116140_j87875030876683_2_alg».proof.Proof.Gen.Pre_finite_inputs
import Idealize.ShloMosaic.PureOps.Ideal
import Idealize.ShloMosaic.Lib.ReduceAll
import Idealize.ShloMosaic.Lib.ValueIdx
import proofs.«116140_j87875030876683_2_alg».proof.Proof.LibRealLaw

noncomputable section

namespace Cert.Gcn.Finite

open Idealize.ShloMosaic Idealize.ShloMosaic.ValueIdx
open Cert.Attn.RealLaw
open Cert.Pre_finite_inputs Cert.Pre_finite_inputs.Facts

/-- The scalar shape has one index. -/
instance subsingleton_scalar_idx : Subsingleton S_.Idx := ⟨fun a b => funext fun d => d.elim0⟩

/-- The single-precision pattern `0x7F800000` (sign `0`, exponent field all ones, significand field `0`)
    denotes `+∞`. -/
theorem top_word : Ideal.ofBits .f32 0x7F800000#32 = ⊤ := by simp [Ideal.ofBits, Ideal.ieee]

/-- THE ELEMENT FACT: an extended real whose absolute value `max a (-a)` is below `+∞` is a real number. -/
theorem isReal_of_abs_lt_inf {a : EReal}
    (h : Ideal.cmp .olt (max a (-a)) (Ideal.ofBits .f32 0x7F800000#32) = 1#1) : IsReal a := by
  rw [top_word] at h
  induction a using EReal.rec with
  | bot => simp [Ideal.cmp] at h
  | coe r => exact ⟨r, rfl⟩
  | top => simp [Ideal.cmp] at h

/-- ONE `all (|a| < +∞)`: if the reduction by `and`, over all axes, of the comparisons of `|a|` with the
    broadcast word of `+∞` is `1`, every entry of `a` is real. -/
theorem reals_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) :
    ∀ i, IsReal (a i) := by
  intro i
  have hi := Host.reduce_andi_all _ _ hr hu ix0 e i
  exact isReal_of_abs_lt_inf hi

/-- The vector `and` of 1-bit scalars, read at the one index. -/
private theorem andi_apply (p q : IVec S_ 1) (j : S_.Idx) : andi p q j = IntOp.andi (p j) (q j) := rfl

/-- FINITENESS FROM THE PRECONDITION: if the printed predicate is `1` then every entry of each of the five
    float arguments is a real number. -/
theorem reals_of_pre (x : FVec Ideal S100000x512 .f32) (ei : IVec S2x3200000 32) (w1 : FVec Ideal S512x16 .f32)
    (b1 : FVec Ideal S16 .f32) (w2 : FVec Ideal S16x7 .f32) (b2 : FVec Ideal S7 .f32)
    (h : Cert.Pre_finite_inputs.fn (F := Ideal) x ei w1 b1 w2 b2 = fun _ => 1#1) :
    (∀ i, IsReal (x i)) ∧ (∀ i, IsReal (w1 i)) ∧ (∀ i, IsReal (b1 i)) ∧ (∀ i, IsReal (w2 i))
      ∧ (∀ i, IsReal (b2 i)) := by
  have h0 := congrFun h ix0
  dsimp only [fn, fn_part1] at h0
  simp only [andi_apply, IntOp.andi_eq_one] at h0
  obtain ⟨⟨⟨⟨hx, hw1⟩, hb1⟩, hw2⟩, hb2⟩ := h0
  exact ⟨reals_of_all x _ _ _ hx, reals_of_all w1 _ _ _ hw1, reals_of_all b1 _ _ _ hb1,
    reals_of_all w2 _ _ _ hw2, reals_of_all b2 _ _ _ hb2⟩

end Cert.Gcn.Finite

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.AggLaw.lean ====
/- A scatter of additions that adds whole rows: an operand of `N` rows of width `D`, a column `[E, 1]` of
   start indices, and `E` update rows of width `D`.  Update entry `(e, c')` can only land in the row its
   index word names (read signed, not clamped) and in its own column `c'`.

   On top of that, the aggregation law of a normalised graph convolution over the extended reals: scaling
   each table row by `dinv`, gathering along the edges, adding into the destination rows and scaling the
   sum by `dinv` of the destination is the same as adding the gathered rows each multiplied by the edge's
   norm `dinv src * dinv dst`.  Over the extended reals multiplication does not distribute over addition in
   general, so the law is stated for entries known to be real numbers.

   Then the facts that keep entries real (the scale `deg ^ (-1/2)` guarded by `deg > 0`, the clip at zero,
   gathers and adding scatters of reals), and the law applied twice: a two-layer convolution of widths 16
   and 7 over 100000 rows and 3300000 edges. -/
import Idealize.ShloMosaic.PureOps.Ideal
import Idealize.ShloMosaic.PureOps.Ideal.Laws
import Idealize.ShloMosaic.Lib.ValueIdx
import proofs.«116140_j87875030876683_2_alg».proof.Proof.LibRealLaw
import proofs.«116140_j87875030876683_2_alg».proof.Proof.LibGatherFlatRows
import Mathlib.Algebra.BigOperators.Fin
import Mathlib.Data.BitVec

noncomputable section

open scoped BigOperators

namespace Cert.Gcn.AggLaw

open Idealize.ShloMosaic Idealize.ShloMosaic.ValueIdx
open Cert.Attn.RealLaw

section Rows
variable {wi : Nat}

/-- The dimension numbers: an operand `[N, D]`, a column `[E, 1]` of start indices (the index vector along
    axis 1, its one component naming the operand's row axis), updates `[E, D]` whose axis 1 is the window
    axis going to the operand's column axis. -/
abbrev scatterRows (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

private theorem zero_mem : (0 : Fin 2) ∈ ([0] : List (Fin 2)) := by decide
private theorem one_not_mem : (1 : Fin 2) ∉ ([0] : List (Fin 2)) := by decide

/-- On the row axis update `(e, c')`'s window starts at its index word read signed … -/
theorem start_row {N D E : Nat} (wf : ScatterDims.WF ⟨2, ![N, D]⟩ ⟨2, ![E, 1]⟩ ⟨2, ![E, D]⟩ [1] [0] [0] 1)
    (idx : IVec ⟨2, ![E, 1]⟩ wi) (e : Fin E) (c' : Fin D) :
    (scatterRows N D E wf).start (ix2 e c') idx 0 = (idx (ix2 e (0 : Fin 1))).toInt := by
  unfold ScatterDims.start
  rw [dif_pos (show (0 : Fin 2) ∈ (scatterRows N D E wf).scatterDimsToOperandDims from zero_mem)]
  have hsi : (scatterRows N D E wf).siIdx (ix2 e c')
      ⟨List.idxOf (0 : Fin 2) (scatterRows N D E wf).scatterDimsToOperandDims,
        List.idxOf_lt_length_iff.2 zero_mem⟩ = ix2 e (0 : Fin 1) := by
    funext b; refine Fin.ext ?_
    match b with
    | ⟨0, _⟩ => rfl
    | ⟨1, _⟩ => rfl
  rw [hsi]

/-- … and on the column axis at `0`: the map names no component for it. -/
theorem start_colAxis {N D E : Nat} (wf : ScatterDims.WF ⟨2, ![N, D]⟩ ⟨2, ![E, 1]⟩ ⟨2, ![E, D]⟩ [1] [0] [0] 1)
    (idx : IVec ⟨2, ![E, 1]⟩ wi) (e : Fin E) (c' : Fin D) :
    (scatterRows N D E wf).start (ix2 e c') idx 1 = 0 := by
  unfold ScatterDims.start
  rw [dif_neg (show (1 : Fin 2) ∉ (scatterRows N D E wf).scatterDimsToOperandDims from one_not_mem)]

/-- The row axis is an inserted one: no window coordinate there. -/
theorem window_row {N D E : Nat} (wf : ScatterDims.WF ⟨2, ![N, D]⟩ ⟨2, ![E, 1]⟩ ⟨2, ![E, D]⟩ [1] [0] [0] 1)
    (e : Fin E) (c' : Fin D) :
    (scatterRows N D E wf).window (ix2 e c') 0 = 0 := by
  unfold ScatterDims.window
  rw [dif_neg]
  show (0 : Fin 2) ∉ (List.finRange 2).filter (· ∉ ([0] : List (Fin 2)))
  decide

/-- The column axis carries the update's own column. -/
theorem window_colAxis {N D E : Nat} (wf : ScatterDims.WF ⟨2, ![N, D]⟩ ⟨2, ![E, 1]⟩ ⟨2, ![E, D]⟩ [1] [0] [0] 1)
    (e : Fin E) (c' : Fin D) :
    (scatterRows N D E wf).window (ix2 e c') 1 = c'.val := by
  unfold ScatterDims.window
  have hk : (1 : Fin 2) ∈ (scatterRows N D E wf).sKept := by
    show (1 : Fin 2) ∈ (List.finRange 2).filter (· ∉ ([0] : List (Fin 2)))
    decide
  rw [dif_pos hk]
  rfl

/-- Update `(e, c')` can only land in the row its index word names, read signed, and in its own column. -/
theorem resultIdx_rows {N D E : Nat} (wf : ScatterDims.WF ⟨2, ![N, D]⟩ ⟨2, ![E, 1]⟩ ⟨2, ![E, D]⟩ [1] [0] [0] 1)
    (idx : IVec ⟨2, ![E, 1]⟩ wi) (e : Fin E) (c' : Fin D) (i : (⟨2, ![N, D]⟩ : Shape).Idx) :
    (scatterRows N D E wf).resultIdx? (ix2 e c') idx = some i →
      (idx (ix2 e (0 : Fin 1))).toInt = ((i 0).val : Int) ∧ (i 1).val = c'.val := by
  unfold ScatterDims.resultIdx?
  by_cases h : ∀ a, 0 ≤ (scatterRows N D E wf).start (ix2 e c') idx a + (scatterRows N D E wf).window (ix2 e c') a
      ∧ (scatterRows N D E wf).start (ix2 e c') idx a + (scatterRows N D E wf).window (ix2 e c') a
          < ((⟨2, ![N, D]⟩ : Shape).size a : Int)
  · rw [dif_pos h]
    intro he
    have h0 := (h 0).1
    rw [start_row, window_row] at h0
    have e0 := congrArg Fin.val (congrFun (Option.some.inj he) 0)
    have e1 := congrArg Fin.val (congrFun (Option.some.inj he) 1)
    have e0' : ((scatterRows N D E wf).start (ix2 e c') idx 0
        + (((scatterRows N D E wf).window (ix2 e c') 0 : Nat) : Int)).toNat = (i 0).val := e0
    have e1' : ((scatterRows N D E wf).start (ix2 e c') idx 1
        + (((scatterRows N D E wf).window (ix2 e c') 1 : Nat) : Int)).toNat = (i 1).val := e1
    rw [start_row, window_row] at e0'
    rw [start_colAxis, window_colAxis] at e1'
    constructor
    · omega
    · omega
  · rw [dif_neg h]
    intro he; exact absurd he (by simp)

end Rows

section Law
variable {w : Nat}

open Cert.LibGatherFlatRows

/-- A property of every `(e, c')` holds of every rank-2 index: an index is the pair of its coordinates. -/
private theorem idx2_ind {E D : Nat} {P : (⟨2, ![E, D]⟩ : Shape).Idx → Prop}
    (h : ∀ (e : Fin E) (c' : Fin D), P (ix2 e c')) (j : (⟨2, ![E, D]⟩ : Shape).Idx) : P j :=
  Eq.mpr (congrArg P (eq_ix2 j)) (h (j 0) (j 1))

/-- THE AGGREGATION LAW.  `H` is a table of real entries, `dinv` a real scale per row, `nrmB (e, d)` the norm
    `dinv (src e) * dinv n` of edge `e` whenever its destination word names row `n`.  Scale each row of `H`
    by its `dinv`, gather the source rows along the edges, add them into the destination rows of a zero
    table and scale row `n` of the sum by `dinv n`: entry `(n, c)` is the same as that of the zero table
    after adding, for each edge, its gathered row of `H` multiplied by the edge's norm.  Both sides are
    `0` plus a sum over the same set of updates (those landing on `(n, c)`); every term is real, so the
    scale goes inside the sum, and termwise `(H r c' * dinv r) * dinv n = (dinv r * dinv n) * H r c'`. -/
theorem agg_law {N D E : Nat} (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (H : (⟨2, ![N, D]⟩ : Shape).Idx → EReal) (dinv : Fin N → EReal)
    (z : (⟨2, ![N, D]⟩ : Shape).Idx → EReal) (hz : ∀ i, z i = 0)
    (srcC dstC : IVec ⟨2, ![E, 1]⟩ w)
    (nrmB : (⟨2, ![E, D]⟩ : Shape).Idx → EReal)
    (hH : ∀ i, IsReal (H i)) (hd : ∀ n, IsReal (dinv n))
    (hn : ∀ (e : Fin E) (d : Fin D) (n : Fin N), (dstC (ix2 e (0 : Fin 1))).toInt = (n.val : Int) →
        nrmB (ix2 e d) = dinv (rowOf N hN (srcC (ix2 e (0 : Fin 1)))) * dinv n)
    (n : Fin N) (c : Fin D) :
    Host.scatterAdd (F := Ideal) (φ := .f32) (scatterRows N D E wfS) z dstC
        (Host.gather (rowDims N D E wfG) (fun i => H i * dinv (i 0)) srcC) (ix2 n c) * dinv n
      = Host.scatterAdd (F := Ideal) (φ := .f32) (scatterRows N D E wfS) z dstC
        (mulf (F := Ideal) nrmB (Host.gather (rowDims N D E wfG) H srcC)) (ix2 n c) := by
  choose H' hH' using hH
  choose d' hd' using hd
  -- the source row of an edge
  let r : Fin E → Fin N := fun e => rowOf N hN (srcC (ix2 e (0 : Fin 1)))
  -- the two gathers, entry by entry
  have hG1 : ∀ j : (⟨2, ![E, D]⟩ : Shape).Idx,
      Host.gather (rowDims N D E wfG) (fun i => H i * dinv (i 0)) srcC j
        = ((H' (ix2 (r (j 0)) (j 1)) * d' (r (j 0)) : ℝ) : EReal) := by
    refine idx2_ind (fun e c' => ?_)
    show Host.gather (rowDims N D E wfG) (fun i => H i * dinv (i 0)) srcC (ix2 e c')
        = ((H' (ix2 (r e) c') * d' (r e) : ℝ) : EReal)
    rw [gather_rows_apply hN]
    show H (ix2 (r e) c') * dinv (r e) = _
    rw [hH', hd', ← EReal.coe_mul]
  have hG2 : ∀ j : (⟨2, ![E, D]⟩ : Shape).Idx,
      Host.gather (rowDims N D E wfG) H srcC j = ((H' (ix2 (r (j 0)) (j 1)) : ℝ) : EReal) := by
    refine idx2_ind (fun e c' => ?_)
    show Host.gather (rowDims N D E wfG) H srcC (ix2 e c') = ((H' (ix2 (r e) c') : ℝ) : EReal)
    rw [gather_rows_apply hN]
    exact hH' _
  -- the norm of an update landing on (n, c)
  have hNrm : ∀ j : (⟨2, ![E, D]⟩ : Shape).Idx,
      (scatterRows N D E wfS).resultIdx? j dstC = some (ix2 n c) →
        nrmB j = ((d' (r (j 0)) * d' n : ℝ) : EReal) := by
    refine idx2_ind (fun e c' => ?_)
    intro hj
    show nrmB (ix2 e c') = ((d' (r e) * d' n : ℝ) : EReal)
    have hrow : (dstC (ix2 e (0 : Fin 1))).toInt = (n.val : Int) :=
      (resultIdx_rows wfS dstC e c' (ix2 n c) hj).1
    rw [hn e c' n hrow]
    show dinv (r e) * dinv n = _
    rw [hd', hd', ← EReal.coe_mul]
  -- the law over any set of updates that all land on (n, c)
  have key : ∀ S : Finset (⟨2, ![E, D]⟩ : Shape).Idx,
      (∀ j ∈ S, (scatterRows N D E wfS).resultIdx? j dstC = some (ix2 n c)) →
      (∑ j ∈ S, Host.gather (rowDims N D E wfG) (fun i => H i * dinv (i 0)) srcC j) * dinv n
        = ∑ j ∈ S, mulf (F := Ideal) (φ := .f32) nrmB (Host.gather (rowDims N D E wfG) H srcC) j := by
    intro S hS
    have hL : (∑ j ∈ S, Host.gather (rowDims N D E wfG) (fun i => H i * dinv (i 0)) srcC j)
        = ((∑ j ∈ S, H' (ix2 (r (j 0)) (j 1)) * d' (r (j 0)) : ℝ) : EReal) := by
      rw [coe_sum]; exact Finset.sum_congr rfl (fun j _ => hG1 j)
    have hR : (∑ j ∈ S, mulf (F := Ideal) (φ := .f32) nrmB (Host.gather (rowDims N D E wfG) H srcC) j)
        = ((∑ j ∈ S, d' (r (j 0)) * d' n * H' (ix2 (r (j 0)) (j 1)) : ℝ) : EReal) := by
      rw [coe_sum]; refine Finset.sum_congr rfl (fun j hj => ?_)
      rw [mulf_apply, hG2 j, hNrm j (hS j hj), ← EReal.coe_mul]
    rw [hL, hR, hd' n, ← EReal.coe_mul]
    refine congrArg _ ?_
    rw [Finset.sum_mul]
    exact Finset.sum_congr rfl fun j _ => by ring
  simp only [Host.scatterAdd, Ideal.hostScatterAdd_def, Ideal.hostScatterAdd, hz, zero_add]
  exact key _ (fun j hj => (Finset.mem_filter.mp hj).2)

end Law

section Scale

/-- The single-precision pattern `0xBF000000` (sign `1`, exponent field `126`, significand field `0`) denotes
    `-(2 ^ (126 - 127)) = -1/2`. -/
theorem neg_half : Ideal.ofBits .f32 0xBF000000#32 = (((-1 / 2 : ℝ)) : EReal) := by
  simp [Ideal.ofBits, Ideal.ieee, -EReal.coe_mul]; norm_num

/-- The ideal power with exponent `-1/2` of an extended real above zero is real: a real base gives a real
    power, and `⊤` to a negative exponent gives `0`. -/
theorem isReal_pow_neg_half {x : EReal} (hx : 0 < x) : IsReal (Ideal.pow x (((-1 / 2 : ℝ)) : EReal)) := by
  induction x using EReal.rec with
  | bot => exact absurd hx (not_lt.mpr bot_le)
  | coe r => exact ⟨Real.rpow r (-1 / 2), rfl⟩
  | top =>
    refine ⟨0, ?_⟩
    rw [Ideal.pow_top]
    have h1 : ¬ (0 : EReal) < (((-1 / 2 : ℝ)) : EReal) := by
      rw [EReal.coe_pos]; norm_num
    have h2 : ¬ ((((-1 / 2 : ℝ)) : EReal) = 0) := by
      rw [EReal.coe_eq_zero]; norm_num
    rw [if_neg h1, if_neg h2, EReal.coe_zero]

/-- EVERY SCALE ENTRY IS REAL, whatever the degree: the entry is `deg ^ (-1/2)` where the degree is above
    zero and `0` elsewhere.  A degree `⊥` is not above zero, so the entry is `0`; a degree `⊤` gives
    `⊤ ^ (-1/2) = 0`; a real degree above zero gives a real power. -/
theorem isReal_scale {N : Nat} (deg zs cs zs' : (⟨1, ![N]⟩ : Shape).Idx → EReal)
    (hzs : ∀ i, zs i = 0) (hzs' : ∀ i, zs' i = 0) (hcs : ∀ i, cs i = Ideal.ofBits .f32 0xBF000000#32)
    (i : (⟨1, ![N]⟩ : Shape).Idx) :
    IsReal (select (cmpf (F := Ideal) (φ := .f32) .ogt deg zs) (Host.powf (F := Ideal) (φ := .f32) deg cs) zs' i) := by
  rw [select_apply, cmpf_apply, Ideal.cmpf_def]
  show IsReal (Scalar.select (Ideal.cmp .ogt (deg i) (zs i)) (Ideal.pow (deg i) (cs i)) (zs' i))
  rw [hzs, hzs', hcs, neg_half]
  unfold Scalar.select
  by_cases hb : Ideal.cmp .ogt (deg i) 0 = 1
  · rw [if_pos hb]
    refine isReal_pow_neg_half ?_
    by_contra hlt
    simp [Ideal.cmp, hlt] at hb
  · rw [if_neg hb]
    exact ⟨0, EReal.coe_zero.symm⟩

end Scale

section Keep

/-- The maximum of a real extended real and zero is real. -/
theorem isReal_max_zero {x : EReal} (hx : IsReal x) : IsReal (max x 0) := by
  obtain ⟨r, rfl⟩ := hx
  have h := EReal.coe_strictMono.monotone.map_max (a := r) (b := 0)
  rw [EReal.coe_zero] at h
  exact ⟨max r 0, h.symm⟩

end Keep

section Reals
variable {K : Type*}

/-- A sum of real extended reals over a finite set is real. -/
theorem isReal_finset_sum (S : Finset K) {f : K → EReal} (hf : ∀ k ∈ S, IsReal (f k)) :
    IsReal (∑ k ∈ S, f k) := by
  classical
  induction S using Finset.induction_on with
  | empty => rw [Finset.sum_empty]; exact ⟨0, EReal.coe_zero.symm⟩
  | insert a s ha ih =>
    rw [Finset.sum_insert ha]
    exact isReal_add (hf a (Finset.mem_insert_self a s))
      (ih fun k hk => hf k (Finset.mem_insert_of_mem hk))

/-- A gather of a table of reals has real entries: each is an entry of the table. -/
theorem isReal_gather {s si t : Shape} {w : Nat} (d : GatherDims s si t) (x : s.Idx → EReal) (idx : IVec si w)
    (hx : ∀ i, IsReal (x i)) (j : t.Idx) : IsReal (Host.gather d x idx j) := by
  unfold Host.gather
  exact hx _

/-- The adding scatter at a place is real when the operand's entry there is and every update that lands
    there is: it is that entry plus the sum of those updates. -/
theorem isReal_scatterAdd_of_landing {s si u : Shape} {w : Nat} (d : ScatterDims s si u) (x : s.Idx → EReal)
    (idx : IVec si w) (upd : u.Idx → EReal) (i : s.Idx) (hx : IsReal (x i))
    (hu : ∀ j, d.resultIdx? j idx = some i → IsReal (upd j)) :
    IsReal (Host.scatterAdd (F := Ideal) (φ := .f32) d x idx upd i) := by
  simp only [Host.scatterAdd, Ideal.hostScatterAdd_def, Ideal.hostScatterAdd]
  exact isReal_add hx (isReal_finset_sum _ fun j hj => hu j (Finset.mem_filter.mp hj).2)

/-- A SCATTER-ADD OF REALS IS REAL: a real operand and real updates give real entries. -/
theorem isReal_scatterAdd {s si u : Shape} {w : Nat} (d : ScatterDims s si u) (x : s.Idx → EReal)
    (idx : IVec si w) (upd : u.Idx → EReal) (hx : ∀ i, IsReal (x i)) (hu : ∀ j, IsReal (upd j)) (i : s.Idx) :
    IsReal (Host.scatterAdd (F := Ideal) (φ := .f32) d x idx upd i) :=
  isReal_scatterAdd_of_landing d x idx upd i (hx i) fun j _ => hu j

end Reals

section Layers
variable {w : Nat}

open Cert.LibGatherFlatRows

/-- The first layer's aggregate as the kernel computes it: the rows of `hw1` scaled by `dinv`, gathered along
    the edges and added into the destination rows (the scale by `dinv` of the destination comes after). -/
def layer1K
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (dinv : Fin 100000 → EReal)
    (z16 : (⟨2, ![100000, 16]⟩ : Shape).Idx → EReal) (srcC dstC : IVec ⟨2, ![3300000, 1]⟩ w) :
    (⟨2, ![100000, 16]⟩ : Shape).Idx → EReal :=
  Host.scatterAdd (F := Ideal) (φ := .f32) (scatterRows 100000 16 3300000 wfS16) z16 dstC
    (Host.gather (rowDims 100000 16 3300000 wfG16) (fun i => hw1 i * dinv (i 0)) srcC)

/-- The first layer's aggregate as the reference computes it: the gathered rows of `hw1`, each multiplied by
    its edge's norm, added into the destination rows. -/
def layer1R
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal)
    (z16 : (⟨2, ![100000, 16]⟩ : Shape).Idx → EReal) (srcC dstC : IVec ⟨2, ![3300000, 1]⟩ w)
    (nrm16 : (⟨2, ![3300000, 16]⟩ : Shape).Idx → EReal) :
    (⟨2, ![100000, 16]⟩ : Shape).Idx → EReal :=
  Host.scatterAdd (F := Ideal) (φ := .f32) (scatterRows 100000 16 3300000 wfS16) z16 dstC
    (mulf (F := Ideal) nrm16 (Host.gather (rowDims 100000 16 3300000 wfG16) hw1 srcC))

/-- The second layer's dense product on the kernel's side: the first aggregate scaled by the destination's
    `dinv`, plus the bias, clipped below at zero, times `W2`. -/
def dense2K
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (b1 : Fin 16 → EReal)
    (W2 : (⟨2, ![16, 7]⟩ : Shape).Idx → EReal) (dinv : Fin 100000 → EReal)
    (z16 : (⟨2, ![100000, 16]⟩ : Shape).Idx → EReal) (srcC dstC : IVec ⟨2, ![3300000, 1]⟩ w) :
    (⟨2, ![100000, 7]⟩ : Shape).Idx → EReal :=
  fun i => ∑ k : Fin 16,
    max (layer1K wfS16 wfG16 hw1 dinv z16 srcC dstC (ix2 (i 0) k) * dinv (i 0) + b1 k) 0 * W2 (ix2 k (i 1))

/-- The second layer's dense product on the reference's side. -/
def dense2R
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (b1 : Fin 16 → EReal)
    (W2 : (⟨2, ![16, 7]⟩ : Shape).Idx → EReal)
    (z16 : (⟨2, ![100000, 16]⟩ : Shape).Idx → EReal) (srcC dstC : IVec ⟨2, ![3300000, 1]⟩ w)
    (nrm16 : (⟨2, ![3300000, 16]⟩ : Shape).Idx → EReal) :
    (⟨2, ![100000, 7]⟩ : Shape).Idx → EReal :=
  fun i => ∑ k : Fin 16,
    max (layer1R wfS16 wfG16 hw1 z16 srcC dstC nrm16 (ix2 (i 0) k) + b1 k) 0 * W2 (ix2 k (i 1))

/-- The first layer: the kernel's aggregate scaled by the destination's `dinv` is the reference's aggregate
    (the aggregation law at width 16). -/
theorem layer1_eq (hN : 0 < 100000)
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (dinv : Fin 100000 → EReal)
    (z16 : (⟨2, ![100000, 16]⟩ : Shape).Idx → EReal) (hz16 : ∀ i, z16 i = 0)
    (srcC dstC : IVec ⟨2, ![3300000, 1]⟩ w)
    (nrm16 : (⟨2, ![3300000, 16]⟩ : Shape).Idx → EReal)
    (hhw1 : ∀ i, IsReal (hw1 i)) (hd : ∀ n, IsReal (dinv n))
    (hn16 : ∀ (e : Fin 3300000) (d : Fin 16) (n : Fin 100000),
        (dstC (ix2 e (0 : Fin 1))).toInt = (n.val : Int) →
        nrm16 (ix2 e d) = dinv (rowOf 100000 hN (srcC (ix2 e (0 : Fin 1)))) * dinv n)
    (n : Fin 100000) (k : Fin 16) :
    layer1K wfS16 wfG16 hw1 dinv z16 srcC dstC (ix2 n k) * dinv n
      = layer1R wfS16 wfG16 hw1 z16 srcC dstC nrm16 (ix2 n k) :=
  agg_law hN wfS16 wfG16 hw1 dinv z16 hz16 srcC dstC nrm16 hhw1 hd hn16 n k

/-- The kernel's first aggregate has real entries: a zero table plus gathered products of reals. -/
theorem isReal_layer1K
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (dinv : Fin 100000 → EReal)
    (z16 : (⟨2, ![100000, 16]⟩ : Shape).Idx → EReal) (hz16 : ∀ i, z16 i = 0)
    (srcC dstC : IVec ⟨2, ![3300000, 1]⟩ w)
    (hhw1 : ∀ i, IsReal (hw1 i)) (hd : ∀ n, IsReal (dinv n))
    (i : (⟨2, ![100000, 16]⟩ : Shape).Idx) :
    IsReal (layer1K wfS16 wfG16 hw1 dinv z16 srcC dstC i) := by
  unfold layer1K
  refine isReal_scatterAdd _ _ _ _ (fun i => ?_) (fun j => ?_) i
  · rw [hz16]; exact ⟨0, EReal.coe_zero.symm⟩
  · exact isReal_gather _ _ _ (fun i => isReal_mul (hhw1 i) (hd _)) j

/-- THE TWO DENSE PRODUCTS AGREE: term by term, by the first layer's law. -/
theorem dense2_eq (hN : 0 < 100000)
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (b1 : Fin 16 → EReal)
    (W2 : (⟨2, ![16, 7]⟩ : Shape).Idx → EReal) (dinv : Fin 100000 → EReal)
    (z16 : (⟨2, ![100000, 16]⟩ : Shape).Idx → EReal) (hz16 : ∀ i, z16 i = 0)
    (srcC dstC : IVec ⟨2, ![3300000, 1]⟩ w)
    (nrm16 : (⟨2, ![3300000, 16]⟩ : Shape).Idx → EReal)
    (hhw1 : ∀ i, IsReal (hw1 i)) (hd : ∀ n, IsReal (dinv n))
    (hn16 : ∀ (e : Fin 3300000) (d : Fin 16) (n : Fin 100000),
        (dstC (ix2 e (0 : Fin 1))).toInt = (n.val : Int) →
        nrm16 (ix2 e d) = dinv (rowOf 100000 hN (srcC (ix2 e (0 : Fin 1)))) * dinv n) :
    dense2K wfS16 wfG16 hw1 b1 W2 dinv z16 srcC dstC = dense2R wfS16 wfG16 hw1 b1 W2 z16 srcC dstC nrm16 := by
  funext i
  unfold dense2K dense2R
  refine Finset.sum_congr rfl fun k _ => ?_
  exact congrArg (fun t => max (t + b1 k) 0 * W2 (ix2 k (i 1)))
    (layer1_eq hN wfS16 wfG16 hw1 dinv z16 hz16 srcC dstC nrm16 hhw1 hd hn16 (i 0) k)

/-- THE REFERENCE'S DENSE PRODUCT IS REAL: each factor is — the first aggregate by the law and the
    kernel's side, the bias, the clip at zero, the weights. -/
theorem isReal_dense2R (hN : 0 < 100000)
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (hw1 : (⟨2, ![100000, 16]⟩ : Shape).Idx → EReal) (b1 : Fin 16 → EReal)
    (W2 : (⟨2, ![16, 7]⟩ : Shape).Idx → EReal) (dinv : Fin 100000 → EReal)
    (z16 : (⟨2, ![100000, 16]⟩ : Shape).Idx → EReal) (hz16 : ∀ i, z16 i = 0)
    (srcC dstC : IVec ⟨2, ![3300000, 1]⟩ w)
    (nrm16 : (⟨2, ![3300000, 16]⟩ : Shape).Idx → EReal)
    (hhw1 : ∀ i, IsReal (hw1 i)) (hb1 : ∀ k, IsReal (b1 k)) (hW2 : ∀ i, IsReal (W2 i))
    (hd : ∀ n, IsReal (dinv n))
    (hn16 : ∀ (e : Fin 3300000) (d : Fin 16) (n : Fin 100000),
        (dstC (ix2 e (0 : Fin 1))).toInt = (n.val : Int) →
        nrm16 (ix2 e d) = dinv (rowOf 100000 hN (srcC (ix2 e (0 : Fin 1)))) * dinv n)
    (i : (⟨2, ![100000, 7]⟩ : Shape).Idx) :
    IsReal (dense2R wfS16 wfG16 hw1 b1 W2 z16 srcC dstC nrm16 i) := by
  unfold dense2R
  refine isReal_sum_mul (fun k => ?_) (fun k => hW2 _)
  refine isReal_max_zero (isReal_add ?_ (hb1 k))
  obtain ⟨r, hr⟩ := isReal_mul
    (isReal_layer1K wfS16 wfG16 hw1 dinv z16 hz16 srcC dstC hhw1 hd (ix2 (i 0) k)) (hd (i 0))
  exact ⟨r, (layer1_eq hN wfS16 wfG16 hw1 dinv z16 hz16 srcC dstC nrm16 hhw1 hd hn16 (i 0) k).symm.trans hr⟩

/-- THE SECOND LAYER: with the kernel's dense product in place of the reference's, the aggregation law
    at width 7. -/
theorem layer2_eq (hN : 0 < 100000)
    (wfS16 : ScatterDims.WF ⟨2, ![100000, 16]⟩ ⟨2, ![3300000, 1]⟩ ⟨2, ![3300000, 16]⟩ [1] [0] [0] 1)
    (wfG16 : GatherDims.WF ⟨2, ![100000, 16]⟩ ⟨2, ![3300000, 1]⟩ ⟨2, ![3300000, 16]⟩ [1] [0] [] [0] [] 1 ![1, 16])
    (wfS7 : ScatterDims.WF ⟨2, ![100000, 7]⟩ ⟨2, ![3300000, 1]⟩ ⟨2, ![3300000, 7]⟩ [1] [0] [0] 1)
    (wfG7 : GatherDims.WF ⟨2, ![100000, 7]⟩ ⟨2, ![3300000, 1]⟩ ⟨2, ![3300000, 7]⟩ [1] [0] [] [0] [] 1 ![1, 7])
    (hw1 : (⟨2, ![100000, 16]⟩ : Shape).Idx → EReal) (b1 : Fin 16 → EReal)
    (W2 : (⟨2, ![16, 7]⟩ : Shape).Idx → EReal) (dinv : Fin 100000 → EReal)
    (z16 : (⟨2, ![100000, 16]⟩ : Shape).Idx → EReal) (hz16 : ∀ i, z16 i = 0)
    (z7 : (⟨2, ![100000, 7]⟩ : Shape).Idx → EReal) (hz7 : ∀ i, z7 i = 0)
    (srcC dstC : IVec ⟨2, ![3300000, 1]⟩ w)
    (nrm16 : (⟨2, ![3300000, 16]⟩ : Shape).Idx → EReal)
    (nrm7 : (⟨2, ![3300000, 7]⟩ : Shape).Idx → EReal)
    (hhw1 : ∀ i, IsReal (hw1 i)) (hb1 : ∀ k, IsReal (b1 k)) (hW2 : ∀ i, IsReal (W2 i))
    (hd : ∀ n, IsReal (dinv n))
    (hn16 : ∀ (e : Fin 3300000) (d : Fin 16) (n : Fin 100000),
        (dstC (ix2 e (0 : Fin 1))).toInt = (n.val : Int) →
        nrm16 (ix2 e d) = dinv (rowOf 100000 hN (srcC (ix2 e (0 : Fin 1)))) * dinv n)
    (hn7 : ∀ (e : Fin 3300000) (d : Fin 7) (n : Fin 100000),
        (dstC (ix2 e (0 : Fin 1))).toInt = (n.val : Int) →
        nrm7 (ix2 e d) = dinv (rowOf 100000 hN (srcC (ix2 e (0 : Fin 1)))) * dinv n)
    (n : Fin 100000) (c : Fin 7) :
    Host.scatterAdd (F := Ideal) (φ := .f32) (scatterRows 100000 7 3300000 wfS7) z7 dstC
        (Host.gather (rowDims 100000 7 3300000 wfG7)
          (fun i => dense2K wfS16 wfG16 hw1 b1 W2 dinv z16 srcC dstC i * dinv (i 0)) srcC) (ix2 n c) * dinv n
      = Host.scatterAdd (F := Ideal) (φ := .f32) (scatterRows 100000 7 3300000 wfS7) z7 dstC
        (mulf (F := Ideal) nrm7 (Host.gather (rowDims 100000 7 3300000 wfG7)
          (dense2R wfS16 wfG16 hw1 b1 W2 z16 srcC dstC nrm16) srcC)) (ix2 n c) := by
  rw [dense2_eq hN wfS16 wfG16 hw1 b1 W2 dinv z16 hz16 srcC dstC nrm16 hhw1 hd hn16]
  exact agg_law hN wfS7 wfG7 (dense2R wfS16 wfG16 hw1 b1 W2 z16 srcC dstC nrm16) dinv z7 hz7 srcC dstC nrm7
    (isReal_dense2R hN wfS16 wfG16 hw1 b1 W2 dinv z16 hz16 srcC dstC nrm16 hhw1 hb1 hW2 hd hn16) hd hn7 n c

end Layers

end Cert.Gcn.AggLaw

end
-- ==== Proof.Common.lean ====
/-
  The vocabulary of the main equation.  Both programs build, from the edge list alone, the source and destination
  index vectors (each edge list row followed by one self loop per node), the per-node scale d (degree to the power
  −1/2, zero at isolated nodes) and, in the reference only, the per-edge norm d[src]·d[dst].  From the features and
  the first weights both form the dense product  hw1[n,c] = Σ_k X[n,k]·W1[k,c].  Everything below is at the exact
  reading: a float is an extended real.
-/
import proofs.«116140_j87875030876683_2_alg».proof.Proof.KernelValue
import proofs.«116140_j87875030876683_2_alg».proof.Proof.RefValue
import proofs.«116140_j87875030876683_2_alg».proof.Proof.AggLaw

noncomputable section

namespace Cert.Gcn.Common

open scoped BigOperators
open Idealize.ShloMosaic Idealize.ShloMosaic.ValueIdx
open Cert.Gcn.AggLaw Cert.LibGatherFlatRows

abbrev T16 := (⟨2, ![100000, 16]⟩ : Shape).Idx → EReal
abbrev T7 := (⟨2, ![100000, 7]⟩ : Shape).Idx → EReal

/-- The conditions on the dimension numbers of the two row scatters and the two row gathers. -/
theorem wfS16 : ScatterDims.WF ⟨2, ![100000, 16]⟩ ⟨2, ![3300000, 1]⟩ ⟨2, ![3300000, 16]⟩ [1] [0] [0] 1 :=
  Cert.KernelIdeal.Gen.scatter_S100000x16_S3300000x1_S3300000x16_1_0_0_1_wf
theorem wfS7 : ScatterDims.WF ⟨2, ![100000, 7]⟩ ⟨2, ![3300000, 1]⟩ ⟨2, ![3300000, 7]⟩ [1] [0] [0] 1 :=
  Cert.KernelIdeal.Gen.scatter_S100000x7_S3300000x1_S3300000x7_1_0_0_1_wf
theorem wfG16 : GatherDims.WF ⟨2, ![100000, 16]⟩ ⟨2, ![3300000, 1]⟩ ⟨2, ![3300000, 16]⟩ [1] [0] [] [0] [] 1 ![1, 16] :=
  Cert.KernelIdeal.Gen.gather_S100000x16_S3300000x1_S3300000x16_1_0_n_n_0_1_116_wf
theorem wfG7 : GatherDims.WF ⟨2, ![100000, 7]⟩ ⟨2, ![3300000, 1]⟩ ⟨2, ![3300000, 7]⟩ [1] [0] [] [0] [] 1 ![1, 7] :=
  Cert.KernelIdeal.Gen.gather_S100000x7_S3300000x1_S3300000x7_1_0_n_n_0_1_17_wf
theorem hN : 0 < 100000 := by decide

section
variable (EI : IVec (⟨2, ![2, 3200000]⟩ : Shape) 32)

/-- The source vector, negative entries wrapped, as a column of start indices. -/
def srcC : IVec (⟨2, ![3300000, 1]⟩ : Shape) 32 :=
  Cert.KernelIdeal.GcnValue.wrapCol (F := Ideal) (Cert.KernelIdeal.GcnValue.srcVec (F := Ideal) EI)

/-- The destination vector as a column of scatter indices. -/
def dstC : IVec (⟨2, ![3300000, 1]⟩ : Shape) 32 :=
  Cert.KernelIdeal.GcnValue.idxCol (F := Ideal) (Cert.KernelIdeal.GcnValue.dstVec (F := Ideal) EI)

/-- The per-node scale as a vector. -/
def dinvV : (⟨1, ![100000]⟩ : Shape).Idx → EReal :=
  Cert.KernelIdeal.GcnValue.scaleVec (F := Ideal)
    (Cert.KernelIdeal.GcnValue.degree (F := Ideal) (Cert.KernelIdeal.GcnValue.dstVec (F := Ideal) EI))

/-- The per-node scale. -/
def dinv (n : Fin 100000) : EReal := dinvV EI (ix1 n)

/-- The reference's per-edge norm, spread over 16 and over 7 columns. -/
def nrmV : (⟨1, ![3300000]⟩ : Shape).Idx → EReal :=
  Cert.ReferenceIdeal.GcnRef.edgeNorm (F := Ideal) (dinvV EI)
    (Cert.KernelIdeal.GcnValue.srcVec (F := Ideal) EI) (Cert.KernelIdeal.GcnValue.dstVec (F := Ideal) EI)

/-- The per-edge norm spread over the 16 feature columns. -/
def nrm16 : (⟨2, ![3300000, 16]⟩ : Shape).Idx → EReal :=
  broadcastInDim Cert.ReferenceIdeal.S3300000x16 ![0, 1] Cert.ReferenceIdeal.Gen.bcast_S3300000x1_S3300000x16_0_1
    (broadcastInDim Cert.ReferenceIdeal.S3300000x1 ![0] Cert.ReferenceIdeal.Gen.bcast_S3300000_S3300000x1_0 (nrmV EI))

/-- The per-edge norm spread over the 7 class columns. -/
def nrm7 : (⟨2, ![3300000, 7]⟩ : Shape).Idx → EReal :=
  broadcastInDim Cert.ReferenceIdeal.S3300000x7 ![0, 1] Cert.ReferenceIdeal.Gen.bcast_S3300000x1_S3300000x7_0_1
    (broadcastInDim Cert.ReferenceIdeal.S3300000x1 ![0] Cert.ReferenceIdeal.Gen.bcast_S3300000_S3300000x1_0 (nrmV EI))
end

/-- The zero matrices the scatters start from. -/
def z16 : T16 :=
  broadcastInDim Cert.KernelIdeal.S100000x16 ![] Cert.KernelIdeal.Gen.bcast_S_S100000x16
    (constant (F := Ideal) Cert.KernelIdeal.S_ FTy.f32 0#32)
def z7 : T7 :=
  broadcastInDim Cert.KernelIdeal.S100000x7 ![] Cert.KernelIdeal.Gen.bcast_S_S100000x7
    (constant (F := Ideal) Cert.KernelIdeal.S_ FTy.f32 0#32)

/-- The first dense product. -/
def hw1 (X : (⟨2, ![100000, 512]⟩ : Shape).Idx → EReal) (W1 : (⟨2, ![512, 16]⟩ : Shape).Idx → EReal) : T16 :=
  fun i => ∑ k : Fin 512, X (ix2 (i 0) k) * W1 (ix2 k (i 1))

/-- A bias vector by its entries. -/
def b1 (B1 : (⟨1, ![16]⟩ : Shape).Idx → EReal) (k : Fin 16) : EReal := B1 (ix1 k)

/-- A row's log-softmax: each score less the row's maximum, less the logarithm of the sum of their exponentials. -/
def lsmRow (l : Fin 7 → EReal) (c : Fin 7) : EReal :=
  (l c - (Finset.univ : Finset (Fin 7)).fold max (Ideal.ofBits .f32 0xFF800000#32) l)
    - Ideal.log (∑ c' : Fin 7, Ideal.exp (l c'
        - (Finset.univ : Finset (Fin 7)).fold max (Ideal.ofBits .f32 0xFF800000#32) l))

end Cert.Gcn.Common

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.Payloads.lean ====
/-
  The three kernel bodies read at an index on the extended reals. Each body is a pure term over the values its region
  loads; at an output entry it is a closed expression in the entries of ONE row of its operands: a matrix product
  scaled by the row's factor; a scaled, shifted, rectified row times a matrix, scaled again; and a scaled, shifted
  row minus its maximum minus the logarithm of the sum of the exponentials of those differences.
-/
import proofs.«116140_j87875030876683_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«116140_j87875030876683_2_alg».proof.Proof.LibPlainMatmul
import proofs.«116140_j87875030876683_2_alg».proof.Proof.LibKeepdims
import proofs.«116140_j87875030876683_2_alg».proof.Proof.LibRowMax

noncomputable section

open scoped BigOperators

namespace Cert.Gcn.Payloads

open Cert.KernelIdeal Cert.KernelIdeal.Gen Idealize.ShloMosaic Idealize.ShloMosaic.ValueIdx

/-- The first body at entry `(r, c)`: the product of row `r` of the features with column `c` of the weights, times
    the row's scale factor. A change of format is the identity on the extended reals. -/
theorem k0_pay1_apply (x0 : Vec Ideal S5000x512 .f32) (w : Vec Ideal S512x16 .f32) (d : Vec Ideal S5000x1 .f32)
    (r : Fin 5000) (c : Fin 16) :
    k0_pay1 (F := Ideal) x0 w d (ix2 r c)
      = (∑ k : Fin 512, x0 (ix2 r k) * w (ix2 k c)) * d (ix2 r (0 : Fin 1)) := by
  unfold k0_pay1
  refine (mulf_apply _ _ _).trans ?_
  refine congrArg₂ (· * ·) ?_ ?_
  · exact Cert.LibPlainMatmul.matmul_zero_apply none (truncf .bf16 x0 bitsLt_bf16_f32) (truncf .bf16 w bitsLt_bf16_f32) r c
  · rw [shapeCast_self]
    exact Cert.LibKeepdims.broadcastTo_a1_ab_apply d _ r c

/-- The second body at entry `(r, c)`: row `r` of the aggregate is scaled by the row's factor, shifted by the bias row
    and rectified (the maximum with zero); the result times column `c` of the weights, scaled by the row's factor. -/
theorem k1_pay1_apply (a : Vec Ideal S5000x16 .f32) (d : Vec Ideal S5000x1 .f32) (b : Vec Ideal S1x16 .f32)
    (w : Vec Ideal S16x7 .f32) (d' : Vec Ideal S5000x1 .f32) (r : Fin 5000) (c : Fin 7) :
    k1_pay1 (F := Ideal) a d b w d' (ix2 r c)
      = (∑ k : Fin 16, max (a (ix2 r k) * d (ix2 r (0 : Fin 1)) + b (ix2 (0 : Fin 1) k)) 0 * w (ix2 k c))
          * d' (ix2 r (0 : Fin 1)) := by
  unfold k1_pay1
  refine (mulf_apply _ _ _).trans ?_
  refine congrArg₂ (· * ·) ?_ ?_
  · refine (Cert.LibPlainMatmul.matmul_zero_apply none (truncf .bf16 _ bitsLt_bf16_f32)
      (truncf .bf16 w bitsLt_bf16_f32) r c).trans ?_
    refine Finset.sum_congr rfl fun k _ => ?_
    refine congrArg (· * w (ix2 k c)) ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ ?_
        · rw [shapeCast_self]
        · rw [shapeCast_self]
          exact Cert.LibKeepdims.broadcastTo_a1_ab_apply d _ r k
      · rw [shapeCast_self]
        exact broadcastTo_1b_ab_apply b _ r k
    · exact Ideal.ofBits_zero_f32
  · rw [shapeCast_self]
    exact Cert.LibKeepdims.broadcastTo_a1_ab_apply d' _ r c

section LogSoftmaxRow

variable (a : Vec Ideal S5000x7 .f32) (d : Vec Ideal S5000x1 .f32) (b : Vec Ideal S1x7 .f32)

/-- Entry `c'` of row `r` of the aggregate, scaled by the row's factor and shifted by the bias row. -/
def logit (r : Fin 5000) (c' : Fin 7) : Ideal .f32 :=
  a (ix2 r c') * d (ix2 r (0 : Fin 1)) + b (ix2 (0 : Fin 1) c')

/-- The lane maximum of row `r`: the fold of `max`, from the value of the accumulator's pattern, over the row's
    scaled and shifted entries. -/
def rowMax (r : Fin 5000) : Ideal .f32 :=
  (Finset.univ : Finset (Fin 7)).fold max (Ideal.ofBits .f32 0xFF800000#32) (logit a d b r)

/-- The scaled, shifted matrix as the third body forms it. -/
abbrev shifted : FVec Ideal S5000x7 .f32 :=
  addf (mulf (shapeCast S5000x7 a shapeCasts_S5000x7_S5000x7)
      (broadcastTo S5000x7 (shapeCast S5000x1 d shapeCasts_S5000x1_S5000x1) broadcasts_S5000x1_S5000x7))
    (broadcastTo S5000x7 (shapeCast S1x7 b shapeCasts_S1x7_S1x7) broadcasts_S1x7_S5000x7)

/-- That matrix minus its row maxima, as the third body forms it. -/
abbrev centered : FVec Ideal S5000x7 .f32 :=
  subf (shifted a d b) (broadcastTo S5000x7 (shapeCast S5000x1
      (multiReduction (F := Ideal) .maximumf [1] S5000 (shifted a d b) 0xFF800000#32 reduces_S5000x7_S5000 (.inl rfl) rfl)
      shapeCasts_S5000_S5000x1) broadcasts_S5000x1_S5000x7)

/-- The third body is the centered matrix minus the logarithm of the row sums of its exponentials. -/
theorem k2_pay1_eq :
    k2_pay1 (F := Ideal) a d b
      = subf (centered a d b) (broadcastTo S5000x7 (log (shapeCast S5000x1
          (multiReduction (F := Ideal) .add [1] S5000 (exp (centered a d b)) 0x00000000#32 reduces_S5000x7_S5000 (.inl rfl) rfl)
          shapeCasts_S5000_S5000x1)) broadcasts_S5000x1_S5000x7) := rfl

/-- The scaled, shifted matrix at an entry. -/
theorem shifted_apply (r : Fin 5000) (c' : Fin 7) : shifted a d b (ix2 r c') = logit a d b r c' := by
  refine (addf_apply _ _ _).trans ?_
  refine congrArg₂ (· + ·) ?_ ?_
  · refine (mulf_apply _ _ _).trans ?_
    refine congrArg₂ (· * ·) ?_ ?_
    · rw [shapeCast_self]
    · rw [shapeCast_self]
      exact Cert.LibKeepdims.broadcastTo_a1_ab_apply d _ r c'
  · rw [shapeCast_self]
    exact broadcastTo_1b_ab_apply b _ r c'

/-- The centered matrix at an entry: the row's entry minus the row's maximum. -/
theorem centered_apply (r : Fin 5000) (c' : Fin 7) :
    centered a d b (ix2 r c') = logit a d b r c' - rowMax a d b r := by
  refine (subf_apply _ _ _).trans ?_
  refine congrArg₂ (· - ·) (shifted_apply a d b r c') ?_
  refine (Cert.LibKeepdims.broadcastTo_a1_ab_apply _ _ r c').trans ?_
  refine (Cert.LibKeepdims.shapeCast_a_a1_apply _ _ r (0 : Fin 1)).trans ?_
  refine (Cert.LibRowMax.multiReduction_maximumf_rows _ _ _ _ _ r).trans ?_
  exact congrArg (fun f => (Finset.univ : Finset (Fin 7)).fold max (Ideal.ofBits .f32 0xFF800000#32) f)
    (funext fun c'' => shifted_apply a d b r c'')

/-- The third body at entry `(r, c)`: the row's scaled, shifted entry minus the row's maximum, minus the logarithm of
    the sum over the row of the exponentials of those differences. Only row `r` of the aggregate, the row's factor and
    the bias row enter. -/
theorem k2_pay1_apply (r : Fin 5000) (c : Fin 7) :
    k2_pay1 (F := Ideal) a d b (ix2 r c)
      = (logit a d b r c - rowMax a d b r)
          - Ideal.log (∑ c' : Fin 7, Ideal.exp (logit a d b r c' - rowMax a d b r)) := by
  refine (congrFun (k2_pay1_eq a d b) (ix2 r c)).trans ?_
  refine (subf_apply _ _ _).trans ?_
  refine congrArg₂ (· - ·) (centered_apply a d b r c) ?_
  refine (Cert.LibKeepdims.broadcastTo_a1_ab_apply _ _ r c).trans ?_
  show Ideal.log _ = _
  refine congrArg Ideal.log ?_
  refine (Cert.LibKeepdims.shapeCast_a_a1_apply _ _ r (0 : Fin 1)).trans ?_
  refine (Cert.LibKeepdims.multiReduction_add_rows _ _ _ _ _ r).trans ?_
  refine Finset.sum_congr rfl fun c' _ => ?_
  exact congrArg Ideal.exp (centered_apply a d b r c')

/-- The same with the row's entries and its maximum written out. -/
theorem k2_pay1_apply_explicit (r : Fin 5000) (c : Fin 7) :
    k2_pay1 (F := Ideal) a d b (ix2 r c)
      = ((a (ix2 r c) * d (ix2 r (0 : Fin 1)) + b (ix2 (0 : Fin 1) c))
            - (Finset.univ : Finset (Fin 7)).fold max (Ideal.ofBits .f32 0xFF800000#32)
                (fun c' => a (ix2 r c') * d (ix2 r (0 : Fin 1)) + b (ix2 (0 : Fin 1) c')))
          - Ideal.log (∑ c' : Fin 7, Ideal.exp ((a (ix2 r c') * d (ix2 r (0 : Fin 1)) + b (ix2 (0 : Fin 1) c'))
              - (Finset.univ : Finset (Fin 7)).fold max (Ideal.ofBits .f32 0xFF800000#32)
                  (fun c'' => a (ix2 r c'') * d (ix2 r (0 : Fin 1)) + b (ix2 (0 : Fin 1) c'')))) :=
  k2_pay1_apply a d b r c

end LogSoftmaxRow

end Cert.Gcn.Payloads

end
-- ==== Proof.RegionApply.lean ====
/-
  The three regions' functions read at an entry.  Row n of a 100000-row array lies in tile n div 5000 at place
  n mod 5000, and 5000 · (n div 5000) + n mod 5000 = n: so the body's value on that tile, read at that place,
  speaks of row n of the row-tiled operands and of the whole small operands.  With the bodies read at an index:
    first region   (n, c) ↦ (Σ_k X[n,k] · W[k,c]) · d[n]
    second region  (n, c) ↦ (Σ_k max(A[n,k] · d[n] + b[k], 0) · W[k,c]) · d[n]
    third region   (n, c) ↦ (l[c] − M) − log Σ_c' exp(l[c'] − M),  l[c'] = A[n,c'] · d[n] + b[c'],  M the maximum of l.
-/
import proofs.«116140_j87875030876683_2_alg».proof.Proof.Region0
import proofs.«116140_j87875030876683_2_alg».proof.Proof.Region1
import proofs.«116140_j87875030876683_2_alg».proof.Proof.Region2
import proofs.«116140_j87875030876683_2_alg».proof.Proof.Payloads

set_option maxRecDepth 16384

noncomputable section

namespace Cert.KernelIdeal.GcnRegions

open scoped BigOperators
open Cert.KernelIdeal Cert.KernelIdeal.Gen Cert.Gcn.Payloads
open Idealize.ShloMosaic Idealize.ShloMosaic.TcCoe Idealize.SL.Sem Idealize.ShloMosaic.ValueIdx

/-! ## A window's block read at a place -/

theorem read0_0 (A : S100000x512.Idx → Elt Ideal .f32) (n : Fin 100000) (k : Fin 512) :
    ((cfg0.win 0).blk (tile0 n.val n.isLt)).view.read (Elt Ideal) A
        (ix2 (⟨n.val % 5000, Nat.mod_lt _ (by omega)⟩ : Fin 5000) k) = A (ix2 n k) := by
  obtain ⟨h0, h1⟩ : win0_0.index (tile0 n.val n.isLt) (0 : Fin 2) = n.val / 5000
      ∧ win0_0.index (tile0 n.val n.isLt) (1 : Fin 2) = 0 := by
    have := idx0 (tile0 n.val n.isLt)
    have hv : (tile0 n.val n.isLt).val = n.val / 5000 := rfl
    omega
  show A (((cfg0.win 0).blk (tile0 n.val n.isLt)).view.emb (ix2 (⟨n.val % 5000, Nat.mod_lt _ (by omega)⟩ : Fin 5000) k)) = _
  congr 1
  funext a; apply Fin.ext
  have hn := n.isLt
  have hk := k.isLt
  match a with
  | ⟨0, _⟩ => show win0_0.index (tile0 n.val n.isLt) (0 : Fin 2) * 5000 + 1 * (n.val % 5000) = n.val; omega
  | ⟨1, _⟩ => show win0_0.index (tile0 n.val n.isLt) (1 : Fin 2) * 512 + 1 * k.val = k.val; omega

theorem read0_1 (A : S512x16.Idx → Elt Ideal .f32) (t : Fin cfg0.N) (a : Fin 512) (b : Fin 16) :
    ((cfg0.win 1).blk t).view.read (Elt Ideal) A (ix2 a b) = A (ix2 a b) := by
  obtain ⟨h0, h1⟩ : win0_1.index t (0 : Fin 2) = 0 ∧ win0_1.index t (1 : Fin 2) = 0 := by
    have := idx0 t
    omega
  show A (((cfg0.win 1).blk t).view.emb (ix2 a b)) = _
  congr 1
  funext x; apply Fin.ext
  match x with
  | ⟨0, _⟩ => show win0_1.index t (0 : Fin 2) * 512 + 1 * a.val = a.val; omega
  | ⟨1, _⟩ => show win0_1.index t (1 : Fin 2) * 16 + 1 * b.val = b.val; omega

theorem read0_2 (A : S100000x1.Idx → Elt Ideal .f32) (n : Fin 100000) (k : Fin 1) :
    ((cfg0.win 2).blk (tile0 n.val n.isLt)).view.read (Elt Ideal) A
        (ix2 (⟨n.val % 5000, Nat.mod_lt _ (by omega)⟩ : Fin 5000) k) = A (ix2 n k) := by
  obtain ⟨h0, h1⟩ : win0_2.index (tile0 n.val n.isLt) (0 : Fin 2) = n.val / 5000
      ∧ win0_2.index (tile0 n.val n.isLt) (1 : Fin 2) = 0 := by
    have := idx0 (tile0 n.val n.isLt)
    have hv : (tile0 n.val n.isLt).val = n.val / 5000 := rfl
    omega
  show A (((cfg0.win 2).blk (tile0 n.val n.isLt)).view.emb (ix2 (⟨n.val % 5000, Nat.mod_lt _ (by omega)⟩ : Fin 5000) k)) = _
  congr 1
  funext a; apply Fin.ext
  have hn := n.isLt
  have hk := k.isLt
  match a with
  | ⟨0, _⟩ => show win0_2.index (tile0 n.val n.isLt) (0 : Fin 2) * 5000 + 1 * (n.val % 5000) = n.val; omega
  | ⟨1, _⟩ => show win0_2.index (tile0 n.val n.isLt) (1 : Fin 2) * 1 + 1 * k.val = k.val; omega

theorem read1_0 (A : S100000x16.Idx → Elt Ideal .f32) (n : Fin 100000) (k : Fin 16) :
    ((cfg1.win 0).blk (tile1 n.val n.isLt)).view.read (Elt Ideal) A
        (ix2 (⟨n.val % 5000, Nat.mod_lt _ (by omega)⟩ : Fin 5000) k) = A (ix2 n k) := by
  obtain ⟨h0, h1⟩ : win1_0.index (tile1 n.val n.isLt) (0 : Fin 2) = n.val / 5000
      ∧ win1_0.index (tile1 n.val n.isLt) (1 : Fin 2) = 0 := by
    have := idx1 (tile1 n.val n.isLt)
    have hv : (tile1 n.val n.isLt).val = n.val / 5000 := rfl
    omega
  show A (((cfg1.win 0).blk (tile1 n.val n.isLt)).view.emb (ix2 (⟨n.val % 5000, Nat.mod_lt _ (by omega)⟩ : Fin 5000) k)) = _
  congr 1
  funext a; apply Fin.ext
  have hn := n.isLt
  have hk := k.isLt
  match a with
  | ⟨0, _⟩ => show win1_0.index (tile1 n.val n.isLt) (0 : Fin 2) * 5000 + 1 * (n.val % 5000) = n.val; omega
  | ⟨1, _⟩ => show win1_0.index (tile1 n.val n.isLt) (1 : Fin 2) * 16 + 1 * k.val = k.val; omega

theorem read1_1 (A : S100000x1.Idx → Elt Ideal .f32) (n : Fin 100000) (k : Fin 1) :
    ((cfg1.win 1).blk (tile1 n.val n.isLt)).view.read (Elt Ideal) A
        (ix2 (⟨n.val % 5000, Nat.mod_lt _ (by omega)⟩ : Fin 5000) k) = A (ix2 n k) := by
  obtain ⟨h0, h1⟩ : win1_1.index (tile1 n.val n.isLt) (0 : Fin 2) = n.val / 5000
      ∧ win1_1.index (tile1 n.val n.isLt) (1 : Fin 2) = 0 := by
    have := idx1 (tile1 n.val n.isLt)
    have hv : (tile1 n.val n.isLt).val = n.val / 5000 := rfl
    omega
  show A (((cfg1.win 1).blk (tile1 n.val n.isLt)).view.emb (ix2 (⟨n.val % 5000, Nat.mod_lt _ (by omega)⟩ : Fin 5000) k)) = _
  congr 1
  funext a; apply Fin.ext
  have hn := n.isLt
  have hk := k.isLt
  match a with
  | ⟨0, _⟩ => show win1_1.index (tile1 n.val n.isLt) (0 : Fin 2) * 5000 + 1 * (n.val % 5000) = n.val; omega
  | ⟨1, _⟩ => show win1_1.index (tile1 n.val n.isLt) (1 : Fin 2) * 1 + 1 * k.val = k.val; omega

theorem read1_2 (A : S1x16.Idx → Elt Ideal .f32) (t : Fin cfg1.N) (a : Fin 1) (b : Fin 16) :
    ((cfg1.win 2).blk t).view.read (Elt Ideal) A (ix2 a b) = A (ix2 a b) := by
  obtain ⟨h0, h1⟩ : win1_2.index t (0 : Fin 2) = 0 ∧ win1_2.index t (1 : Fin 2) = 0 := by
    have := idx1 t
    omega
  show A (((cfg1.win 2).blk t).view.emb (ix2 a b)) = _
  congr 1
  funext x; apply Fin.ext
  match x with
  | ⟨0, _⟩ => show win1_2.index t (0 : Fin 2) * 1 + 1 * a.val = a.val; omega
  | ⟨1, _⟩ => show win1_2.index t (1 : Fin 2) * 16 + 1 * b.val = b.val; omega

theorem read1_3 (A : S16x7.Idx → Elt Ideal .f32) (t : Fin cfg1.N) (a : Fin 16) (b : Fin 7) :
    ((cfg1.win 3).blk t).view.read (Elt Ideal) A (ix2 a b) = A (ix2 a b) := by
  obtain ⟨h0, h1⟩ : win1_3.index t (0 : Fin 2) = 0 ∧ win1_3.index t (1 : Fin 2) = 0 := by
    have := idx1 t
    omega
  show A (((cfg1.win 3).blk t).view.emb (ix2 a b)) = _
  congr 1
  funext x; apply Fin.ext
  match x with
  | ⟨0, _⟩ => show win1_3.index t (0 : Fin 2) * 16 + 1 * a.val = a.val; omega
  | ⟨1, _⟩ => show win1_3.index t (1 : Fin 2) * 7 + 1 * b.val = b.val; omega

theorem read2_0 (A : S100000x7.Idx → Elt Ideal .f32) (n : Fin 100000) (k : Fin 7) :
    ((cfg2.win 0).blk (tile2 n.val n.isLt)).view.read (Elt Ideal) A
        (ix2 (⟨n.val % 5000, Nat.mod_lt _ (by omega)⟩ : Fin 5000) k) = A (ix2 n k) := by
  obtain ⟨h0, h1⟩ : win2_0.index (tile2 n.val n.isLt) (0 : Fin 2) = n.val / 5000
      ∧ win2_0.index (tile2 n.val n.isLt) (1 : Fin 2) = 0 := by
    have := idx2 (tile2 n.val n.isLt)
    have hv : (tile2 n.val n.isLt).val = n.val / 5000 := rfl
    omega
  show A (((cfg2.win 0).blk (tile2 n.val n.isLt)).view.emb (ix2 (⟨n.val % 5000, Nat.mod_lt _ (by omega)⟩ : Fin 5000) k)) = _
  congr 1
  funext a; apply Fin.ext
  have hn := n.isLt
  have hk := k.isLt
  match a with
  | ⟨0, _⟩ => show win2_0.index (tile2 n.val n.isLt) (0 : Fin 2) * 5000 + 1 * (n.val % 5000) = n.val; omega
  | ⟨1, _⟩ => show win2_0.index (tile2 n.val n.isLt) (1 : Fin 2) * 7 + 1 * k.val = k.val; omega

theorem read2_1 (A : S100000x1.Idx → Elt Ideal .f32) (n : Fin 100000) (k : Fin 1) :
    ((cfg2.win 1).blk (tile2 n.val n.isLt)).view.read (Elt Ideal) A
        (ix2 (⟨n.val % 5000, Nat.mod_lt _ (by omega)⟩ : Fin 5000) k) = A (ix2 n k) := by
  obtain ⟨h0, h1⟩ : win2_1.index (tile2 n.val n.isLt) (0 : Fin 2) = n.val / 5000
      ∧ win2_1.index (tile2 n.val n.isLt) (1 : Fin 2) = 0 := by
    have := idx2 (tile2 n.val n.isLt)
    have hv : (tile2 n.val n.isLt).val = n.val / 5000 := rfl
    omega
  show A (((cfg2.win 1).blk (tile2 n.val n.isLt)).view.emb (ix2 (⟨n.val % 5000, Nat.mod_lt _ (by omega)⟩ : Fin 5000) k)) = _
  congr 1
  funext a; apply Fin.ext
  have hn := n.isLt
  have hk := k.isLt
  match a with
  | ⟨0, _⟩ => show win2_1.index (tile2 n.val n.isLt) (0 : Fin 2) * 5000 + 1 * (n.val % 5000) = n.val; omega
  | ⟨1, _⟩ => show win2_1.index (tile2 n.val n.isLt) (1 : Fin 2) * 1 + 1 * k.val = k.val; omega

theorem read2_2 (A : S1x7.Idx → Elt Ideal .f32) (t : Fin cfg2.N) (a : Fin 1) (b : Fin 7) :
    ((cfg2.win 2).blk t).view.read (Elt Ideal) A (ix2 a b) = A (ix2 a b) := by
  obtain ⟨h0, h1⟩ : win2_2.index t (0 : Fin 2) = 0 ∧ win2_2.index t (1 : Fin 2) = 0 := by
    have := idx2 t
    omega
  show A (((cfg2.win 2).blk t).view.emb (ix2 a b)) = _
  congr 1
  funext x; apply Fin.ext
  match x with
  | ⟨0, _⟩ => show win2_2.index t (0 : Fin 2) * 1 + 1 * a.val = a.val; omega
  | ⟨1, _⟩ => show win2_2.index t (1 : Fin 2) * 7 + 1 * b.val = b.val; omega

/-! ## A row's place in its tile -/

theorem inTile16_ix2 (n : Fin 100000) (c : Fin 16) :
    inTile16 (ix2 n c) = ix2 (⟨n.val % 5000, Nat.mod_lt _ (by omega)⟩ : Fin 5000) c := by
  funext a; apply Fin.ext
  match a with
  | ⟨0, _⟩ => rfl
  | ⟨1, _⟩ => rfl

theorem inTile7_ix2 (n : Fin 100000) (c : Fin 7) :
    inTile7 (ix2 n c) = ix2 (⟨n.val % 5000, Nat.mod_lt _ (by omega)⟩ : Fin 5000) c := by
  funext a; apply Fin.ext
  match a with
  | ⟨0, _⟩ => rfl
  | ⟨1, _⟩ => rfl

theorem placeInTile_ix2 (n : Fin 100000) (c : Fin 7) :
    placeInTile (ix2 n c) = ix2 (⟨n.val % 5000, Nat.mod_lt _ (by omega)⟩ : Fin 5000) c := by
  funext a; apply Fin.ext
  match a with
  | ⟨0, _⟩ => rfl
  | ⟨1, _⟩ => rfl

/-! ## The bodies over any rows -/

/-- The first body at a place, when the operands' entries it reads are known. -/
theorem body0_of (x0 : Vec Ideal S5000x512 .f32) (w : Vec Ideal S512x16 .f32) (d : Vec Ideal S5000x1 .f32)
    (r : Fin 5000) (c : Fin 16) (xr : Fin 512 → EReal) (wc : Fin 512 → EReal) (dr : EReal)
    (hx : ∀ k, x0 (ix2 r k) = xr k) (hw : ∀ k, w (ix2 k c) = wc k) (hd : d (ix2 r (0 : Fin 1)) = dr) :
    k0_pay1 (F := Ideal) x0 w d (ix2 r c) = (∑ k : Fin 512, xr k * wc k) * dr := by
  rw [k0_pay1_apply]
  simp only [hx, hw, hd]

/-- The second body at a place, when the operands' entries it reads are known. -/
theorem body1_of (a : Vec Ideal S5000x16 .f32) (d : Vec Ideal S5000x1 .f32) (b : Vec Ideal S1x16 .f32)
    (w : Vec Ideal S16x7 .f32) (d' : Vec Ideal S5000x1 .f32) (r : Fin 5000) (c : Fin 7)
    (ar : Fin 16 → EReal) (br : Fin 16 → EReal) (wc : Fin 16 → EReal) (dr : EReal)
    (ha : ∀ k, a (ix2 r k) = ar k) (hb : ∀ k, b (ix2 (0 : Fin 1) k) = br k) (hw : ∀ k, w (ix2 k c) = wc k)
    (hd : d (ix2 r (0 : Fin 1)) = dr) (hd' : d' (ix2 r (0 : Fin 1)) = dr) :
    k1_pay1 (F := Ideal) a d b w d' (ix2 r c) = (∑ k : Fin 16, max (ar k * dr + br k) 0 * wc k) * dr := by
  rw [k1_pay1_apply]
  simp only [ha, hb, hw, hd, hd']

/-- The third body at a place, when the row's shifted scores are known. -/
theorem body2_of (a : Vec Ideal S5000x7 .f32) (d : Vec Ideal S5000x1 .f32) (b : Vec Ideal S1x7 .f32)
    (r : Fin 5000) (c : Fin 7) (l : Fin 7 → EReal)
    (hl : ∀ c', a (ix2 r c') * d (ix2 r (0 : Fin 1)) + b (ix2 (0 : Fin 1) c') = l c') :
    k2_pay1 (F := Ideal) a d b (ix2 r c)
      = (l c - (Finset.univ : Finset (Fin 7)).fold max (Ideal.ofBits .f32 0xFF800000#32) l)
          - Ideal.log (∑ c' : Fin 7, Ideal.exp (l c'
              - (Finset.univ : Finset (Fin 7)).fold max (Ideal.ofBits .f32 0xFF800000#32) l)) := by
  rw [k2_pay1_apply_explicit]
  simp only [hl]

/-! ## The regions' functions at an entry -/

/-- The first region: the dense product's entry, scaled by the node's factor. -/
theorem G0_apply (A0 : S100000x512.Idx → Elt Ideal .f32) (A1 : S512x16.Idx → Elt Ideal .f32)
    (A2 : S100000x1.Idx → Elt Ideal .f32) (n : Fin 100000) (c : Fin 16) :
    G0 (F := Ideal) A0 A1 A2 (ix2 n c)
      = (∑ k : Fin 512, A0 (ix2 n k) * A1 (ix2 k c)) * A2 (ix2 n (0 : Fin 1)) := by
  show tileOut0 A0 A1 A2 (tile0 n.val n.isLt) (inTile16 (ix2 n c)) = _
  rw [inTile16_ix2]
  exact body0_of _ _ _ _ _ (fun k => A0 (ix2 n k)) (fun k => A1 (ix2 k c)) (A2 (ix2 n (0 : Fin 1)))
    (fun k => read0_0 A0 n k) (fun k => read0_1 A1 _ k c) (read0_2 A2 n 0)

/-- The second region: scale, add the bias, clamp at zero, the dense product, scale again. -/
theorem G1_apply (A0 : S100000x16.Idx → Elt Ideal .f32) (A1 : S100000x1.Idx → Elt Ideal .f32)
    (A2 : S1x16.Idx → Elt Ideal .f32) (A3 : S16x7.Idx → Elt Ideal .f32) (n : Fin 100000) (c : Fin 7) :
    G1 (F := Ideal) A0 A1 A2 A3 (ix2 n c)
      = (∑ k : Fin 16, max (A0 (ix2 n k) * A1 (ix2 n (0 : Fin 1)) + A2 (ix2 (0 : Fin 1) k)) 0 * A3 (ix2 k c))
          * A1 (ix2 n (0 : Fin 1)) := by
  show tileOut1 A0 A1 A2 A3 (tile1 n.val n.isLt) (inTile7 (ix2 n c)) = _
  rw [inTile7_ix2]
  exact body1_of _ _ _ _ _ _ _ (fun k => A0 (ix2 n k)) (fun k => A2 (ix2 (0 : Fin 1) k)) (fun k => A3 (ix2 k c))
    (A1 (ix2 n (0 : Fin 1))) (fun k => read1_0 A0 n k) (fun k => read1_2 A2 _ 0 k) (fun k => read1_3 A3 _ k c)
    (read1_1 A1 n 0) (read1_1 A1 n 0)

/-- The third region: scale, add the bias, then the row's log-softmax. -/
theorem G2_apply (A0 : S100000x7.Idx → Elt Ideal .f32) (A1 : S100000x1.Idx → Elt Ideal .f32)
    (A2 : S1x7.Idx → Elt Ideal .f32) (n : Fin 100000) (c : Fin 7) :
    G2 (F := Ideal) A0 A1 A2 (ix2 n c)
      = ((A0 (ix2 n c) * A1 (ix2 n (0 : Fin 1)) + A2 (ix2 (0 : Fin 1) c))
            - (Finset.univ : Finset (Fin 7)).fold max (Ideal.ofBits .f32 0xFF800000#32)
                (fun c' => A0 (ix2 n c') * A1 (ix2 n (0 : Fin 1)) + A2 (ix2 (0 : Fin 1) c')))
          - Ideal.log (∑ c' : Fin 7, Ideal.exp ((A0 (ix2 n c') * A1 (ix2 n (0 : Fin 1)) + A2 (ix2 (0 : Fin 1) c'))
              - (Finset.univ : Finset (Fin 7)).fold max (Ideal.ofBits .f32 0xFF800000#32)
                  (fun c'' => A0 (ix2 n c'') * A1 (ix2 n (0 : Fin 1)) + A2 (ix2 (0 : Fin 1) c'')))) := by
  show tileOut2 A0 A1 A2 (tile2 n.val n.isLt) (placeInTile (ix2 n c)) = _
  rw [placeInTile_ix2]
  exact body2_of _ _ _ _ _ (fun c' => A0 (ix2 n c') * A1 (ix2 n (0 : Fin 1)) + A2 (ix2 (0 : Fin 1) c'))
    (fun c' => congrArg₂ (· + ·) (congrArg₂ (· * ·) (read2_0 A0 n c') (read2_1 A1 n 0)) (read2_2 A2 _ 0 c'))

end Cert.KernelIdeal.GcnRegions

end
-- ==== Proof.KernelEntry.lean ====
/-
  The kernel's function at an entry.  Through the three regions read at an index:
    first region    H1[n,c] = hw1[n,c] · d[n]
    first gather/scatter-add  A1 = Σ over the edges into each node of the gathered rows of H1
    second region   H2[n,c] = (Σ_k max(A1[n,k] · d[n] + b1[k], 0) · W2[k,c]) · d[n]
    second gather/scatter-add  A2, from H2 in the same way
    third region    out[n,c] = the log-softmax of the row  c' ↦ A2[n,c'] · d[n] + b2[c'].
-/
import proofs.«116140_j87875030876683_2_alg».proof.Proof.Common
import proofs.«116140_j87875030876683_2_alg».proof.Proof.RegionApply
import proofs.«116140_j87875030876683_2_alg».proof.Proof.LibKeepdims
import Idealize.ShloMosaic.Lib.ValueLayout

set_option maxRecDepth 16384

noncomputable section

namespace Cert.Gcn.KernelEntry

open scoped BigOperators
open Idealize.ShloMosaic Idealize.ShloMosaic.ValueIdx
open Cert.Gcn.Common Cert.Gcn.AggLaw Cert.LibGatherFlatRows
open Cert.KernelIdeal Cert.KernelIdeal.Gen Cert.KernelIdeal.GcnValue Cert.KernelIdeal.GcnRegions

/-- Two matrices that agree at every (row, column) are equal. -/
theorem funext_ix2 {α : Type} {a b : Nat} {f g : (⟨2, ![a, b]⟩ : Shape).Idx → α}
    (h : ∀ (n : Fin a) (c : Fin b), f (ix2 n c) = g (ix2 n c)) : f = g :=
  funext fun i => (congrArg f (eq_ix2 i)).trans ((h (i 0) (i 1)).trans (congrArg g (eq_ix2 i).symm))

variable (X : (⟨2, ![100000, 512]⟩ : Shape).Idx → EReal) (EI : IVec (⟨2, ![2, 3200000]⟩ : Shape) 32)
  (W1 : (⟨2, ![512, 16]⟩ : Shape).Idx → EReal) (B1 : (⟨1, ![16]⟩ : Shape).Idx → EReal)
  (W2 : (⟨2, ![16, 7]⟩ : Shape).Idx → EReal) (B2 : (⟨1, ![7]⟩ : Shape).Idx → EReal)

/-- The scale column's entry in row `n` is the node's scale. -/
theorem scaleCol_apply (n : Fin 100000) :
    scaleCol (F := Ideal) (degree (F := Ideal) (dstVec (F := Ideal) EI)) (ix2 n (0 : Fin 1)) = dinv EI n :=
  Cert.LibKeepdims.shapeCast_a_a1_apply _ _ n 0

/-- A bias vector cast to a row reads back its entries. -/
theorem biasRow16_apply (k : Fin 16) :
    shapeCast S1x16 B1 shapeCasts_S16_S1x16 (ix2 (0 : Fin 1) k) = b1 B1 k :=
  shapeCast_a_1a_apply _ _ 0 k
theorem biasRow7_apply (c : Fin 7) :
    shapeCast S1x7 B2 shapeCasts_S7_S1x7 (ix2 (0 : Fin 1) c) = B2 (ix1 c) :=
  shapeCast_a_1a_apply _ _ 0 c

/-- The first region's result: the dense product's rows scaled by their nodes' factors. -/
theorem region0_eq :
    G0 (F := Ideal) X W1 (scaleCol (F := Ideal) (degree (F := Ideal) (dstVec (F := Ideal) EI)))
      = fun i => hw1 X W1 i * dinv EI (i 0) :=
  funext_ix2 fun n c => by
    rw [G0_apply, scaleCol_apply]
    rfl

/-- The first aggregation is the first layer's scatter of the gathered, scaled rows. -/
theorem agg16_eq :
    agg16 (F := Ideal) (G0 (F := Ideal) X W1 (scaleCol (F := Ideal) (degree (F := Ideal) (dstVec (F := Ideal) EI))))
        (srcVec (F := Ideal) EI) (dstVec (F := Ideal) EI)
      = layer1K wfS16 wfG16 (hw1 X W1) (dinv EI) z16 (srcC EI) (dstC EI) := by
  rw [region0_eq]
  rfl

/-- The second region's result: the second dense product's rows scaled by their nodes' factors. -/
theorem region1_eq :
    G1 (F := Ideal) (layer1K wfS16 wfG16 (hw1 X W1) (dinv EI) z16 (srcC EI) (dstC EI))
        (scaleCol (F := Ideal) (degree (F := Ideal) (dstVec (F := Ideal) EI)))
        (shapeCast S1x16 B1 shapeCasts_S16_S1x16) W2
      = fun i => dense2K wfS16 wfG16 (hw1 X W1) (b1 B1) W2 (dinv EI) z16 (srcC EI) (dstC EI) i * dinv EI (i 0) :=
  funext_ix2 fun n c => by
    rw [G1_apply, scaleCol_apply]
    simp only [biasRow16_apply]
    rfl

/-- THE KERNEL'S FUNCTION AT AN ENTRY. -/
theorem kernel_entry (n : Fin 100000) (c : Fin 7) :
    kernelOut (F := Ideal) X EI W1 B1 W2 B2 (ix2 n c)
      = lsmRow (fun c' =>
          Host.scatterAdd (F := Ideal) (φ := .f32) (scatterRows 100000 7 3300000 wfS7) z7 (dstC EI)
              (Host.gather (rowDims 100000 7 3300000 wfG7)
                (fun i => dense2K wfS16 wfG16 (hw1 X W1) (b1 B1) W2 (dinv EI) z16 (srcC EI) (dstC EI) i * dinv EI (i 0))
                (srcC EI)) (ix2 n c') * dinv EI n
            + B2 (ix1 c')) c := by
  unfold kernelOut
  rw [agg16_eq, region1_eq, G2_apply, scaleCol_apply]
  simp only [biasRow7_apply]
  rfl

end Cert.Gcn.KernelEntry

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«116140_j87875030876683_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.RefStages.lean ====
/-
  The reference's host stages read at an index on the extended reals: the log-softmax function as the composition of
  its operations and its closed form at an entry, the two dense products, the bias rows, the spread of a column over
  the feature axis, the rectifier, the gather of a vector by an index column, and the wrap of an index that is not
  negative.
-/
import proofs.«116140_j87875030876683_2_alg».proof.Proof.Gen.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«116140_j87875030876683_2_alg».proof.Proof.LibPlainDot
import proofs.«116140_j87875030876683_2_alg».proof.Proof.LibPlainMatmul
import proofs.«116140_j87875030876683_2_alg».proof.Proof.LibHostRows
import proofs.«116140_j87875030876683_2_alg».proof.Proof.LibRowMax
import proofs.«116140_j87875030876683_2_alg».proof.Proof.LibKeepdims
import proofs.«116140_j87875030876683_2_alg».proof.Proof.LibGatherFlatRows

noncomputable section

open scoped BigOperators

namespace Cert.Gcn.RefStages

open Cert.ReferenceIdeal Cert.ReferenceIdeal.Facts₀ Cert.ReferenceIdeal.Facts Idealize.ShloMosaic Idealize.ShloMosaic.ValueIdx

/-! ## The log-softmax function -/

/-- The reference's log-softmax of a `[100000, 7]` matrix: the composition of its body's operations, in order. -/
def lsm (L : S100000x7.Idx → EReal) : S100000x7.Idx → EReal :=
  have cst : FVec Ideal S_ .f32 := constant (F := Ideal) S_ .f32 0xFF800000#32
  have v0 : FVec Ideal S100000 .f32 :=
    Host.reduce (FloatOps.maximumf (F := Ideal) (φ := .f32)) L cst reducesTo_S100000x7_S100000_d1 h_S_
  have cst_0 : FVec Ideal S_ .f32 := constant (F := Ideal) S_ .f32 0xFF800000#32
  have v1 : FVec Ideal S100000 .f32 := broadcastInDim S100000 ![] bcast_S_S100000 cst_0
  have v2 : FVec Ideal S100000 .f32 := maximumf (F := Ideal) v1 v0
  have v3 : FVec Ideal S100000x1 .f32 := broadcastInDim S100000x1 ![0] bcast_S100000_S100000x1_0 v2
  have v4 : FVec Ideal S100000x7 .f32 := broadcastInDim S100000x7 ![0, 1] bcast_S100000x1_S100000x7_0_1 v3
  have v5 : FVec Ideal S100000x7 .f32 := subf (F := Ideal) L v4
  have v6 : FVec Ideal S100000x7 .f32 := Host.exp (F := Ideal) v5
  have cst_1 : FVec Ideal S_ .f32 := constant (F := Ideal) S_ .f32 0x00000000#32
  have v7 : FVec Ideal S100000 .f32 := Host.reduceAdd (F := Ideal) v6 cst_1 reducesTo_S100000x7_S100000_d1 h_S_
  have v8 : FVec Ideal S100000x1 .f32 := broadcastInDim S100000x1 ![0] bcast_S100000_S100000x1_0 v7
  have v9 : FVec Ideal S100000x1 .f32 := Host.log (F := Ideal) v8
  have v10 : FVec Ideal S100000x7 .f32 := broadcastInDim S100000x7 ![0, 1] bcast_S100000x1_S100000x7_0_1 v9
  subf (F := Ideal) v5 v10

/-- The row maxima as the function forms them: the maximum of the `-∞` word with the reduction by maximum. -/
abbrev lsmMax (L : S100000x7.Idx → EReal) : FVec Ideal S100000 .f32 :=
  maximumf (F := Ideal) (broadcastInDim S100000 ![] bcast_S_S100000 (constant (F := Ideal) S_ .f32 0xFF800000#32))
    (Host.reduce (FloatOps.maximumf (F := Ideal) (φ := .f32)) L (constant (F := Ideal) S_ .f32 0xFF800000#32)
      reducesTo_S100000x7_S100000_d1 h_S_)

/-- The matrix minus its row maxima as the function forms it. -/
abbrev lsmCentered (L : S100000x7.Idx → EReal) : FVec Ideal S100000x7 .f32 :=
  subf (F := Ideal) L (broadcastInDim S100000x7 ![0, 1] bcast_S100000x1_S100000x7_0_1
    (broadcastInDim S100000x1 ![0] bcast_S100000_S100000x1_0 (lsmMax L)))

/-- The function is the centered matrix minus the logarithm of the row sums of its exponentials. -/
theorem lsm_eq (L : S100000x7.Idx → EReal) :
    lsm L = subf (F := Ideal) (lsmCentered L) (broadcastInDim S100000x7 ![0, 1] bcast_S100000x1_S100000x7_0_1
      (Host.log (F := Ideal) (broadcastInDim S100000x1 ![0] bcast_S100000_S100000x1_0
        (Host.reduceAdd (F := Ideal) (Host.exp (F := Ideal) (lsmCentered L)) (constant (F := Ideal) S_ .f32 0x00000000#32)
          reducesTo_S100000x7_S100000_d1 h_S_)))) := rfl

/-- The host's logarithm at an index. -/
theorem hostLog_apply {s : Shape} (x : FVec Ideal s .f32) (i : s.Idx) : Host.log (F := Ideal) x i = Ideal.log (x i) :=
  Ideal.hostUnary_log_def (x i)

/-- The host's exponential at an index. -/
theorem hostExp_apply {s : Shape} (x : FVec Ideal s .f32) (i : s.Idx) : Host.exp (F := Ideal) x i = Ideal.exp (x i) :=
  Ideal.hostUnary_exp_def (x i)

/-- The second axis of a `[100000, 7]` matrix reduces to its rows. -/
theorem reduces_rows7 : S100000x7.Reduces [1] S100000 :=
  ⟨reducesTo_S100000x7_S100000_d1.1, Nat.one_pos, reducesTo_S100000x7_S100000_d1.2⟩

/-- The maximum of the `-∞` word's value with anything is the other operand. -/
theorem max_negInf (y : EReal) : max (Ideal.ofBits .f32 0xFF800000#32) y = y := by
  simp [Ideal.ofBits, Ideal.ieee]

/-- The row maximum at row `n`: the fold of `max`, from the `-∞` word's value, over the row's entries. -/
theorem lsmMax_apply (L : S100000x7.Idx → EReal) (n : Fin 100000) :
    lsmMax L (ix1 n)
      = (Finset.univ : Finset (Fin 7)).fold max (Ideal.ofBits .f32 0xFF800000#32) (fun c' => L (ix2 n c')) := by
  refine (maximumf_apply _ _ _).trans ?_
  have h1 : broadcastInDim S100000 ![] bcast_S_S100000 (constant (F := Ideal) S_ .f32 0xFF800000#32) (ix1 n)
      = Ideal.ofBits .f32 0xFF800000#32 := broadcastInDim_scalar_apply bcast_S_S100000 _ (ix1 n)
  rw [h1, max_negInf]
  refine (Cert.LibRowMax.hostReduce_maximumf_single L _ reducesTo_S100000x7_S100000_d1 reduces_rows7 h_S_ (ix1 n)).trans ?_
  show (Finset.univ : Finset (Fin 7)).fold max (Ideal.ofBits .f32 0xFF800000#32)
      (fun k => L (reduces_rows7.lift (ix1 n) k)) = _
  refine congrArg (fun f => (Finset.univ : Finset (Fin 7)).fold max (Ideal.ofBits .f32 0xFF800000#32) f)
    (funext fun k => congrArg L (funext fun ax => Fin.ext ?_))
  match ax with
  | ⟨0, _⟩ => rfl
  | ⟨1, _⟩ => rfl

/-- The centered matrix at an entry: the entry minus its row's maximum. -/
theorem lsmCentered_apply (L : S100000x7.Idx → EReal) (n : Fin 100000) (c : Fin 7) :
    lsmCentered L (ix2 n c)
      = L (ix2 n c) - (Finset.univ : Finset (Fin 7)).fold max (Ideal.ofBits .f32 0xFF800000#32) (fun c' => L (ix2 n c')) := by
  refine (subf_apply _ _ _).trans ?_
  refine congrArg (L (ix2 n c) - ·) ?_
  refine (Cert.LibHostRows.bcast_a1_ab_at ![0, 1] rfl rfl bcast_S100000x1_S100000x7_0_1 _ n c).trans ?_
  refine (Cert.LibHostRows.bcast_a_a1_at ![0] rfl bcast_S100000_S100000x1_0 _ n (0 : Fin 1)).trans ?_
  exact lsmMax_apply L n

/-- The log-softmax at entry `(n, c)`: the entry minus its row's maximum, minus the logarithm of the sum over the row
    of the exponentials of those differences. -/
theorem lsm_apply (L : S100000x7.Idx → EReal) (n : Fin 100000) (c : Fin 7) :
    lsm L (ix2 n c)
      = (L (ix2 n c) - (Finset.univ : Finset (Fin 7)).fold max (Ideal.ofBits .f32 0xFF800000#32) (fun c' => L (ix2 n c')))
          - Ideal.log (∑ c' : Fin 7, Ideal.exp (L (ix2 n c')
              - (Finset.univ : Finset (Fin 7)).fold max (Ideal.ofBits .f32 0xFF800000#32) (fun c'' => L (ix2 n c'')))) := by
  refine (congrFun (lsm_eq L) (ix2 n c)).trans ?_
  refine (subf_apply _ _ _).trans ?_
  refine congrArg₂ (· - ·) (lsmCentered_apply L n c) ?_
  refine (Cert.LibHostRows.bcast_a1_ab_at ![0, 1] rfl rfl bcast_S100000x1_S100000x7_0_1 _ n c).trans ?_
  refine (hostLog_apply _ _).trans ?_
  refine congrArg Ideal.log ?_
  refine (Cert.LibHostRows.bcast_a_a1_at ![0] rfl bcast_S100000_S100000x1_0 _ n (0 : Fin 1)).trans ?_
  refine (Cert.LibHostRows.hostReduceAdd_rows _ _ reducesTo_S100000x7_S100000_d1 reduces_rows7 h_S_ n).trans ?_
  refine (congrArg (· + _) Ideal.ofBits_zero_f32).trans ?_
  refine (zero_add _).trans ?_
  refine Finset.sum_congr rfl fun c' _ => ?_
  exact (hostExp_apply _ _).trans (congrArg Ideal.exp (lsmCentered_apply L n c'))

/-! ## The two dense products -/

/-- The first dense product at entry `(n, c)`: row `n` of the features times column `c` of the weights. -/
theorem dot1_apply (X : S100000x512.Idx → EReal) (W : S512x16.Idx → EReal) (n : Fin 100000) (c : Fin 16) :
    Host.dotGeneral (F := Ideal) (φ₁ := .f32) (φ₂ := .f32) dot_S100000x512_S512x16_S100000x16_1_0_0_1_n_n none X W (ix2 n c)
      = ∑ k : Fin 512, X (ix2 n k) * W (ix2 k c) :=
  Cert.LibPlainDot.dotGeneral_apply (φ₁ := .f32) (φ₂ := .f32) none X W n c

/-- The second dense product at entry `(n, c)`. -/
theorem dot2_apply (X : S100000x16.Idx → EReal) (W : S16x7.Idx → EReal) (n : Fin 100000) (c : Fin 7) :
    Host.dotGeneral (F := Ideal) (φ₁ := .f32) (φ₂ := .f32) dot_S100000x16_S16x7_S100000x7_1_0_0_1_n_n none X W (ix2 n c)
      = ∑ k : Fin 16, X (ix2 n k) * W (ix2 k c) :=
  Cert.LibPlainDot.dotGeneral_apply (φ₁ := .f32) (φ₂ := .f32) none X W n c

/-! ## The bias rows -/

/-- The first bias, written as a row and repeated down the rows, reads at `(n, k)` the bias at `k`. -/
theorem bias16_apply {α : Type} (b : S16.Idx → α) (n : Fin 100000) (k : Fin 16) :
    broadcastInDim S100000x16 ![0, 1] bcast_S1x16_S100000x16_0_1 (broadcastInDim S1x16 ![1] bcast_S16_S1x16_1 b) (ix2 n k)
      = b (ix1 k) :=
  (Cert.LibHostRows.bcast_1b_ab_at ![0, 1] rfl rfl bcast_S1x16_S100000x16_0_1 _ n k).trans
    (Cert.LibHostRows.bcast_b_1b_at ![1] rfl bcast_S16_S1x16_1 b (0 : Fin 1) k)

/-- The second bias likewise. -/
theorem bias7_apply {α : Type} (b : S7.Idx → α) (n : Fin 100000) (k : Fin 7) :
    broadcastInDim S100000x7 ![0, 1] bcast_S1x7_S100000x7_0_1 (broadcastInDim S1x7 ![1] bcast_S7_S1x7_1 b) (ix2 n k)
      = b (ix1 k) :=
  (Cert.LibHostRows.bcast_1b_ab_at ![0, 1] rfl rfl bcast_S1x7_S100000x7_0_1 _ n k).trans
    (Cert.LibHostRows.bcast_b_1b_at ![1] rfl bcast_S7_S1x7_1 b (0 : Fin 1) k)

/-! ## A per-edge vector as a column, and the column spread over the feature axis -/

/-- A per-edge vector written as a column reads at `(e, u)` the vector at `e`; at words this is the index column. -/
theorem column_apply {α : Type} (s : S3300000.Idx → α) (e : Fin 3300000) (u : Fin 1) :
    broadcastInDim S3300000x1 ![0] bcast_S3300000_S3300000x1_0 s (ix2 e u) = s (ix1 e) :=
  Cert.LibHostRows.bcast_a_a1_at ![0] rfl bcast_S3300000_S3300000x1_0 s e u

/-- The column of 32-bit indices at its one entry of row `e`. -/
theorem indexColumn_apply (s : IVec S3300000 32) (e : Fin 3300000) :
    broadcastInDim S3300000x1 ![0] bcast_S3300000_S3300000x1_0 s (ix2 e (0 : Fin 1)) = s (ix1 e) :=
  column_apply s e (0 : Fin 1)

/-- The per-edge factor spread over sixteen features reads at `(e, d)` the factor at `e`. -/
theorem spread16_apply {α : Type} (v : S3300000.Idx → α) (e : Fin 3300000) (d : Fin 16) :
    broadcastInDim S3300000x16 ![0, 1] bcast_S3300000x1_S3300000x16_0_1
        (broadcastInDim S3300000x1 ![0] bcast_S3300000_S3300000x1_0 v) (ix2 e d) = v (ix1 e) :=
  (Cert.LibHostRows.bcast_a1_ab_at ![0, 1] rfl rfl bcast_S3300000x1_S3300000x16_0_1 _ e d).trans
    (column_apply v e (0 : Fin 1))

/-- The per-edge factor spread over seven features likewise. -/
theorem spread7_apply {α : Type} (v : S3300000.Idx → α) (e : Fin 3300000) (d : Fin 7) :
    broadcastInDim S3300000x7 ![0, 1] bcast_S3300000x1_S3300000x7_0_1
        (broadcastInDim S3300000x1 ![0] bcast_S3300000_S3300000x1_0 v) (ix2 e d) = v (ix1 e) :=
  (Cert.LibHostRows.bcast_a1_ab_at ![0, 1] rfl rfl bcast_S3300000x1_S3300000x7_0_1 _ e d).trans
    (column_apply v e (0 : Fin 1))

/-! ## The rectifier -/

/-- The rectifier as the reference spells it: the maximum with the broadcast zero word. -/
theorem relu_apply (x : S100000x16.Idx → EReal) (n : Fin 100000) (k : Fin 16) :
    maximumf (F := Ideal) (φ := .f32) x
        (broadcastInDim S100000x16 ![] bcast_S_S100000x16 (constant (F := Ideal) S_ .f32 0x00000000#32)) (ix2 n k)
      = max (x (ix2 n k)) 0 := by
  refine (maximumf_apply _ _ _).trans ?_
  have h0 : broadcastInDim S100000x16 ![] bcast_S_S100000x16 (constant (F := Ideal) S_ .f32 0x00000000#32) (ix2 n k)
      = (0 : EReal) :=
    (broadcastInDim_scalar_apply bcast_S_S100000x16 _ (ix2 n k)).trans Ideal.ofBits_zero_f32
  rw [h0]

/-! ## The gather of a vector by an index column -/

/-- The dimension numbers of `v[idx]` for a vector `[N]` and an index column `[E, 1]`: the one operand axis is
    collapsed and named by the start index; there is no offset axis. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- That gather read at `e`: the vector at the entry the start index `idx[e, 0]` names, read signed and clamped. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (Cert.LibGatherFlatRows.rowOf N hN (idx (ix2 e (0 : Fin 1))))) := by
  unfold Host.gather
  congr 1
  funext a
  refine Fin.ext ?_
  show (vecDims N E wf).start (ix1 e) idx a + (vecDims N E wf).batchCoord (ix1 e) a
      + (vecDims N E wf).offCoord (ix1 e) a = _
  rw [GatherDims.batchCoord_eq_zero _ _ _ List.not_mem_nil]
  obtain rfl : a = (0 : Fin 1) := Fin.ext (by
    have : a.val < 1 := a.isLt
    show a.val = 0
    omega)
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The reference's gather of the per-node factor by an index column, read at edge `e`. -/
theorem gather_dinv_apply {α : Type} (v : S100000.Idx → α) (idxC : IVec S3300000x1 32) (e : Fin 3300000) :
    Host.gather gather_S100000_S3300000x1_S3300000_n_0_n_n_0_1_1 v idxC (ix1 e)
      = v (ix1 (Cert.LibGatherFlatRows.rowOf 100000 (by decide) (idxC (ix2 e (0 : Fin 1))))) :=
  gather_vec_apply (by decide) gather_S100000_S3300000x1_S3300000_n_0_n_n_0_1_1_wf v idxC e

/-! ## The wrap of a negative index -/

/-- The reference's wrap of an index array: where the index is negative read signed, the index plus the number of
    nodes; elsewhere the index. -/
def wrap (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- Where the index is not negative the wrap leaves it. -/
theorem wrap_of_nonneg (s : IVec S3300000 32) (e : Fin 3300000) (h : 0 ≤ (s (ix1 e)).toInt) :
    wrap s (ix1 e) = s (ix1 e) := by
  have hz : broadcastInDim S3300000 ![] bcast_S_S3300000 (constantI S_ 32 0#32) (ix1 e) = 0#32 :=
    broadcastInDim_scalar_apply bcast_S_S3300000 _ (ix1 e)
  have hlt : (s (ix1 e)).slt 0#32 = false := by
    simp only [BitVec.slt, BitVec.toInt_zero, decide_eq_false_iff_not, Int.not_lt]
    exact h
  show (if BitVec.ofBool ((s (ix1 e)).slt
      (broadcastInDim S3300000 ![] bcast_S_S3300000 (constantI S_ 32 0#32) (ix1 e))) = 1 then _ else _) = _
  rw [hz, hlt]
  rfl

/-- An index word that reads signed as the node `n` is left by the wrap … -/
theorem wrap_of_node (s : IVec S3300000 32) (e : Fin 3300000) (n : Fin 100000) (h : (s (ix1 e)).toInt = (n.val : Int)) :
    wrap s (ix1 e) = s (ix1 e) :=
  wrap_of_nonneg s e (by rw [h]; exact Int.natCast_nonneg _)

/-- … and a word that reads signed as the node `n` names row `n`. -/
theorem rowOf_of_node (b : BitVec 32) (n : Fin 100000) (h : b.toInt = (n.val : Int)) :
    Cert.LibGatherFlatRows.rowOf 100000 (by decide) b = n := by
  refine Fin.ext ?_
  show min b.toInt.toNat (100000 - 1) = n.val
  rw [h, Int.toNat_natCast]
  have := n.isLt
  omega

/-- Hence the wrapped index names row `n`. -/
theorem rowOf_wrap (s : IVec S3300000 32) (e : Fin 3300000) (n : Fin 100000) (h : (s (ix1 e)).toInt = (n.val : Int)) :
    Cert.LibGatherFlatRows.rowOf 100000 (by decide) (wrap s (ix1 e)) = n := by
  rw [wrap_of_node s e n h]
  exact rowOf_of_node _ n h

/-- The gather of a per-node vector by the wrapped index column, at an edge whose index reads signed as the node `n`,
    is the vector at `n`. -/
theorem gather_wrap_apply {α : Type} (v : S100000.Idx → α) (s : IVec S3300000 32) (e : Fin 3300000) (n : Fin 100000)
    (h : (s (ix1 e)).toInt = (n.val : Int)) :
    Host.gather gather_S100000_S3300000x1_S3300000_n_0_n_n_0_1_1 v
        (broadcastInDim S3300000x1 ![0] bcast_S3300000_S3300000x1_0 (wrap s)) (ix1 e) = v (ix1 n) := by
  rw [gather_dinv_apply, indexColumn_apply, rowOf_wrap s e n h]

end Cert.Gcn.RefStages

end
-- ==== Proof.RefEntry.lean ====
/-
  The reference's function at an entry. Its result is the log-softmax of the second propagation step; at entry
  `(n, c)` that is the closed form of a row's log-softmax applied to row `n` of the second step, and each entry of
  that row is the second aggregate (the gathered, norm-scaled rows of the second dense product added into the
  destination rows) plus the bias. The second dense product is the rectified first step times the second weights, and
  the first step is the first aggregate of the first dense product plus the first bias.
-/
import proofs.«116140_j87875030876683_2_alg».proof.Proof.Common
import proofs.«116140_j87875030876683_2_alg».proof.Proof.RefStages

noncomputable section

open scoped BigOperators

namespace Cert.Gcn.RefEntry

open Cert.Gcn.Common Cert.Gcn.AggLaw Cert.LibGatherFlatRows Cert.Gcn.RefStages
open Cert.ReferenceIdeal Cert.ReferenceIdeal.Gen Cert.ReferenceIdeal.GcnRef
open Idealize.ShloMosaic Idealize.ShloMosaic.ValueIdx

section
variable (X : (⟨2, ![100000, 512]⟩ : Shape).Idx → EReal) (EI : IVec (⟨2, ![2, 3200000]⟩ : Shape) 32)
  (W1 : (⟨2, ![512, 16]⟩ : Shape).Idx → EReal) (B1 : (⟨1, ![16]⟩ : Shape).Idx → EReal)
  (W2 : (⟨2, ![16, 7]⟩ : Shape).Idx → EReal) (B2 : (⟨1, ![7]⟩ : Shape).Idx → EReal)

/-! ## The reference's pieces by name -/

/-- The reference's source vector. -/
abbrev srcR : IVec (⟨1, ![3300000]⟩ : Shape) 32 := srcVec (F := Ideal) EI
/-- The reference's destination vector. -/
abbrev dstR : IVec (⟨1, ![3300000]⟩ : Shape) 32 := dstVec (F := Ideal) EI
/-- The reference's per-edge norm. -/
abbrev nrmR : (⟨1, ![3300000]⟩ : Shape).Idx → EReal :=
  edgeNorm (F := Ideal) (scaleVec (F := Ideal) (degree (F := Ideal) (dstR EI))) (srcR EI) (dstR EI)
/-- The reference's first dense product. -/
abbrev H1R : T16 :=
  Host.dotGeneral (F := Ideal) (φ₁ := .f32) (φ₂ := .f32) dot_S100000x512_S512x16_S100000x16_1_0_0_1_n_n none X W1
/-- The reference's second dense product. -/
abbrev H2R : T7 :=
  Host.dotGeneral (F := Ideal) (φ₁ := .f32) (φ₂ := .f32) dot_S100000x16_S16x7_S100000x7_1_0_0_1_n_n none
    (relu (F := Ideal) (conv16 (F := Ideal) (H1R X W1) (nrmR EI) (srcR EI) (dstR EI) B1)) W2

/-- The reference's result is the log-softmax function of its second propagation step. -/
theorem refOut_eq :
    refOut (F := Ideal) X EI W1 B1 W2 B2
      = lsm (conv7 (F := Ideal) (H2R X EI W1 B1 W2) (nrmR EI) (srcR EI) (dstR EI) B2) := rfl

/-! ## The two sides' index columns, norm and zero matrices are the same arrays -/

theorem wrapCol_src : wrapCol (F := Ideal) (srcR EI) = srcC EI := rfl
theorem idxCol_dst : idxCol (F := Ideal) (dstR EI) = dstC EI := rfl
theorem nrmR_eq : nrmR EI = nrmV EI := rfl

/-! ## The first dense product and the first propagation step -/

/-- The reference's first dense product is the sum over the contracted axis, entry by entry. -/
theorem H1R_eq : H1R X W1 = hw1 X W1 :=
  funext fun i => (congrArg (H1R X W1) (eq_ix2 i)).trans (dot1_apply X W1 (i 0) (i 1))

/-- A propagation step at sixteen columns, at entry `(n, k)`: the aggregate of its operand plus the bias. -/
theorem conv16_apply (H : T16) (n : Fin 100000) (k : Fin 16) :
    conv16 (F := Ideal) H (nrmR EI) (srcR EI) (dstR EI) B1 (ix2 n k)
      = layer1R wfS16 wfG16 H z16 (srcC EI) (dstC EI) (nrm16 EI) (ix2 n k) + B1 (ix1 k) := by
  refine (addf_apply _ _ _).trans ?_
  exact congrArg₂ (· + ·) rfl (bias16_apply B1 n k)

/-! ## The second dense product -/

/-- The reference's second dense product is the rectified first step times the second weights, entry by entry. -/
theorem H2R_eq :
    H2R X EI W1 B1 W2 = dense2R wfS16 wfG16 (hw1 X W1) (b1 B1) W2 z16 (srcC EI) (dstC EI) (nrm16 EI) := by
  funext i
  refine (congrArg (H2R X EI W1 B1 W2) (eq_ix2 i)).trans ?_
  refine (dot2_apply _ W2 (i 0) (i 1)).trans ?_
  refine Finset.sum_congr rfl fun k _ => ?_
  refine congrArg (· * W2 (ix2 k (i 1))) ?_
  refine (relu_apply _ (i 0) k).trans ?_
  refine congrArg (max · 0) ?_
  exact (congrArg (fun H => conv16 (F := Ideal) H (nrmR EI) (srcR EI) (dstR EI) B1 (ix2 (i 0) k)) (H1R_eq X W1)).trans
    (conv16_apply EI B1 (hw1 X W1) (i 0) k)

/-! ## The second propagation step and the result -/

/-- A propagation step at seven columns, at entry `(n, c')`: the aggregate of its operand plus the bias. -/
theorem conv7_apply (H : T7) (n : Fin 100000) (c' : Fin 7) :
    conv7 (F := Ideal) H (nrmR EI) (srcR EI) (dstR EI) B2 (ix2 n c')
      = Host.scatterAdd (F := Ideal) (φ := .f32) (scatterRows 100000 7 3300000 wfS7) z7 (dstC EI)
          (mulf (F := Ideal) (nrm7 EI) (Host.gather (rowDims 100000 7 3300000 wfG7) H (srcC EI))) (ix2 n c')
        + B2 (ix1 c') := by
  refine (addf_apply _ _ _).trans ?_
  exact congrArg₂ (· + ·) rfl (bias7_apply B2 n c')

/-- The log-softmax function at entry `(n, c)` is the closed form of a row's log-softmax at row `n`. -/
theorem lsm_eq_lsmRow (L : T7) (n : Fin 100000) (c : Fin 7) : lsm L (ix2 n c) = lsmRow (fun c' => L (ix2 n c')) c :=
  lsm_apply L n c

/-- THE REFERENCE'S FUNCTION AT ENTRY `(n, c)`: the closed form of a row's log-softmax at the row whose entries are the
    second aggregate of the second dense product plus the second bias. -/
theorem ref_entry (n : Fin 100000) (c : Fin 7) :
    refOut (F := Ideal) X EI W1 B1 W2 B2 (ix2 n c)
      = lsmRow (fun c' =>
          Host.scatterAdd (F := Ideal) (φ := .f32) (scatterRows 100000 7 3300000 wfS7) z7 (dstC EI)
              (mulf (F := Ideal) (nrm7 EI)
                (Host.gather (rowDims 100000 7 3300000 wfG7)
                  (dense2R wfS16 wfG16 (hw1 X W1) (b1 B1) W2 z16 (srcC EI) (dstC EI) (nrm16 EI)) (srcC EI))) (ix2 n c')
            + B2 (ix1 c')) c := by
  have hrow : (fun c' : Fin 7 => conv7 (F := Ideal) (H2R X EI W1 B1 W2) (nrmR EI) (srcR EI) (dstR EI) B2 (ix2 n c'))
      = fun c' => Host.scatterAdd (F := Ideal) (φ := .f32) (scatterRows 100000 7 3300000 wfS7) z7 (dstC EI)
              (mulf (F := Ideal) (nrm7 EI)
                (Host.gather (rowDims 100000 7 3300000 wfG7)
                  (dense2R wfS16 wfG16 (hw1 X W1) (b1 B1) W2 z16 (srcC EI) (dstC EI) (nrm16 EI)) (srcC EI))) (ix2 n c')
            + B2 (ix1 c') :=
    funext fun c' =>
      (congrArg (fun H => conv7 (F := Ideal) H (nrmR EI) (srcR EI) (dstR EI) B2 (ix2 n c')) (H2R_eq X EI W1 B1 W2)).trans
        (conv7_apply EI B2 _ n c')
  refine (congrFun (refOut_eq X EI W1 B1 W2 B2) (ix2 n c)).trans ?_
  refine (lsm_eq_lsmRow _ n c).trans ?_
  exact congrArg (fun l => lsmRow l c) hrow

end

end Cert.Gcn.RefEntry

end
-- ==== Proof.CommonFacts.lean ====
/- The side facts of the main equation: the per-node scale is a real number at every node, the reference's
   per-edge norm at an edge whose destination word names node `n` is the product of the scale at the edge's
   (wrapped) source row and the scale at `n`, the first dense product and the bias are real when their
   factors are, and the matrices the adding scatters start from are zero. -/
import proofs.«116140_j87875030876683_2_alg».proof.Proof.Common
import proofs.«116140_j87875030876683_2_alg».proof.Proof.RefStages

noncomputable section

open scoped BigOperators

namespace Cert.Gcn.CommonFacts

open Idealize.ShloMosaic Idealize.ShloMosaic.ValueIdx
open Cert.Attn.RealLaw
open Cert.Gcn.Common Cert.Gcn.AggLaw Cert.LibGatherFlatRows
open Cert.Gcn.RefStages

/-! ## The scale -/

/-- The broadcast of the zero word reads `0` at every index. -/
theorem bcast_zero_apply {T : Shape} (h : (⟨0, ![]⟩ : Shape).BroadcastsInDim T ![]) (j : T.Idx) :
    broadcastInDim T ![] h (constant (F := Ideal) (⟨0, ![]⟩ : Shape) FTy.f32 0#32) j = (0 : EReal) :=
  (broadcastInDim_scalar_apply h _ j).trans Ideal.ofBits_zero_f32

/-- THE SCALE IS REAL at every node: it is `deg ^ (-1/2)` where the degree is above zero and `0` elsewhere. -/
theorem dinv_real (EI : IVec (⟨2, ![2, 3200000]⟩ : Shape) 32) (n : Fin 100000) : IsReal (dinv EI n) := by
  unfold dinv dinvV Cert.KernelIdeal.GcnValue.scaleVec
  have hzs : ∀ i, (broadcastInDim Cert.KernelIdeal.S100000 ![] Cert.KernelIdeal.Gen.bcast_S_S100000
      (constant (F := Ideal) Cert.KernelIdeal.S_ FTy.f32 0#32)) i = (0 : EReal) :=
    fun i => bcast_zero_apply Cert.KernelIdeal.Gen.bcast_S_S100000 i
  have hcs : ∀ i, (broadcastInDim Cert.KernelIdeal.S100000 ![] Cert.KernelIdeal.Gen.bcast_S_S100000
      (constant (F := Ideal) Cert.KernelIdeal.S_ FTy.f32 3204448256#32)) i = Ideal.ofBits .f32 0xBF000000#32 :=
    fun i => broadcastInDim_scalar_apply Cert.KernelIdeal.Gen.bcast_S_S100000 _ i
  exact isReal_scale (N := 100000) _ _ _ _ hzs hzs hcs (ix1 n)

/-! ## The per-edge norm -/

/-- The destination column at its one entry of row `e` is the destination vector at `e`. -/
theorem dstC_apply (EI : IVec (⟨2, ![2, 3200000]⟩ : Shape) 32) (e : Fin 3300000) :
    dstC EI (ix2 e (0 : Fin 1)) = Cert.KernelIdeal.GcnValue.dstVec (F := Ideal) EI (ix1 e) :=
  indexColumn_apply (Cert.KernelIdeal.GcnValue.dstVec (F := Ideal) EI) e

/-- The norm of edge `e`, when its destination word names node `n`: the scale at the row its wrapped source
    word names (read signed and clamped) times the scale at `n`.  The first factor is the gather of the scale
    by the wrapped source column; the second the gather by the wrapped destination column, and the wrap leaves
    a word that names a node. -/
theorem nrmV_apply (EI : IVec (⟨2, ![2, 3200000]⟩ : Shape) 32) (e : Fin 3300000) (n : Fin 100000)
    (h : (dstC EI (ix2 e (0 : Fin 1))).toInt = (n.val : Int)) :
    nrmV EI (ix1 e) = dinv EI (rowOf 100000 hN (srcC EI (ix2 e (0 : Fin 1)))) * dinv EI n := by
  have hdst : (Cert.KernelIdeal.GcnValue.dstVec (F := Ideal) EI (ix1 e)).toInt = (n.val : Int) :=
    (congrArg BitVec.toInt (dstC_apply EI e)).symm.trans h
  unfold nrmV Cert.ReferenceIdeal.GcnRef.edgeNorm
  refine (mulf_apply _ _ _).trans ?_
  refine congrArg₂ (· * ·) ?_ ?_
  · exact gather_dinv_apply (dinvV EI) _ e
  · exact gather_wrap_apply (dinvV EI) (Cert.KernelIdeal.GcnValue.dstVec (F := Ideal) EI) e n hdst

/-- THE NORM SPREAD OVER SIXTEEN COLUMNS at an edge whose destination word names node `n`. -/
theorem norm16 (EI : IVec (⟨2, ![2, 3200000]⟩ : Shape) 32) :
    ∀ (e : Fin 3300000) (d : Fin 16) (n : Fin 100000),
      (dstC EI (ix2 e (0 : Fin 1))).toInt = (n.val : Int) →
      nrm16 EI (ix2 e d) = dinv EI (rowOf 100000 hN (srcC EI (ix2 e (0 : Fin 1)))) * dinv EI n :=
  fun e d n h => (spread16_apply (nrmV EI) e d).trans (nrmV_apply EI e n h)

/-- THE NORM SPREAD OVER SEVEN COLUMNS likewise. -/
theorem norm7 (EI : IVec (⟨2, ![2, 3200000]⟩ : Shape) 32) :
    ∀ (e : Fin 3300000) (d : Fin 7) (n : Fin 100000),
      (dstC EI (ix2 e (0 : Fin 1))).toInt = (n.val : Int) →
      nrm7 EI (ix2 e d) = dinv EI (rowOf 100000 hN (srcC EI (ix2 e (0 : Fin 1)))) * dinv EI n :=
  fun e d n h => (spread7_apply (nrmV EI) e d).trans (nrmV_apply EI e n h)

/-! ## The first dense product and the bias -/

/-- The first dense product of real features and real weights is real. -/
theorem hw1_real (X : (⟨2, ![100000, 512]⟩ : Shape).Idx → EReal) (W1 : (⟨2, ![512, 16]⟩ : Shape).Idx → EReal)
    (hX : ∀ i, IsReal (X i)) (hW1 : ∀ i, IsReal (W1 i)) : ∀ i, IsReal (hw1 X W1 i) :=
  fun _ => isReal_sum_mul (fun _ => hX _) (fun _ => hW1 _)

/-- A real bias vector has real entries. -/
theorem b1_real (B1 : (⟨1, ![16]⟩ : Shape).Idx → EReal) (hB1 : ∀ i, IsReal (B1 i)) : ∀ k, IsReal (b1 B1 k) :=
  fun _ => hB1 _

/-! ## The zero matrices -/

theorem z16_zero : ∀ i, z16 i = 0 := fun i => bcast_zero_apply _ i

theorem z7_zero : ∀ i, z7 i = 0 := fun i => bcast_zero_apply _ i

end Cert.Gcn.CommonFacts

end
-- ==== Proof.MainEq.lean ====
/- The join of the two sides of the main equation.  The kernel's result at an entry and the reference's result at
   an entry are each the row log-softmax of a second-layer aggregate plus the second bias; the two aggregates
   agree entry by entry by the aggregation law applied twice, so the two results are the same function. -/
import proofs.«116140_j87875030876683_2_alg».proof.Proof.CommonFacts

noncomputable section

open scoped BigOperators

namespace Cert.Gcn.MainEq

open Idealize.ShloMosaic Idealize.ShloMosaic.ValueIdx
open Cert.Attn.RealLaw
open Cert.Gcn.Common Cert.Gcn.AggLaw Cert.LibGatherFlatRows
open Cert.Gcn.CommonFacts

/-- A property of every `(n, c)` holds of every rank-2 index: an index is the pair of its coordinates. -/
theorem idx2_ind {A B : Nat} {P : (⟨2, ![A, B]⟩ : Shape).Idx → Prop}
    (h : ∀ (a : Fin A) (b : Fin B), P (ix2 a b)) (j : (⟨2, ![A, B]⟩ : Shape).Idx) : P j :=
  Eq.mpr (congrArg P (eq_ix2 j)) (h (j 0) (j 1))

/-- THE JOIN.  Given the kernel's result at an entry as the row log-softmax of (the second aggregate on the
    kernel's side, scaled by the destination's scale, plus the second bias), and the reference's result at an
    entry as the row log-softmax of (the second aggregate on the reference's side plus the second bias), the
    two results are equal as functions when the float inputs are real: the two aggregates agree entry by entry
    by the second layer's law, so the rows fed to the log-softmax are the same. -/
theorem main_eq_of (X : (⟨2, ![100000, 512]⟩ : Shape).Idx → EReal) (EI : IVec (⟨2, ![2, 3200000]⟩ : Shape) 32)
    (W1 : (⟨2, ![512, 16]⟩ : Shape).Idx → EReal) (B1 : (⟨1, ![16]⟩ : Shape).Idx → EReal)
    (W2 : (⟨2, ![16, 7]⟩ : Shape).Idx → EReal) (B2 : (⟨1, ![7]⟩ : Shape).Idx → EReal)
    (hX : ∀ i, IsReal (X i)) (hW1 : ∀ i, IsReal (W1 i)) (hB1 : ∀ i, IsReal (B1 i)) (hW2 : ∀ i, IsReal (W2 i))
    (hk : ∀ (n : Fin 100000) (c : Fin 7),
      Cert.KernelIdeal.GcnValue.kernelOut (F := Ideal) X EI W1 B1 W2 B2 (ix2 n c)
        = lsmRow (fun c' =>
            Host.scatterAdd (F := Ideal) (φ := .f32) (scatterRows 100000 7 3300000 wfS7) z7 (dstC EI)
                (Host.gather (rowDims 100000 7 3300000 wfG7)
                  (fun i => dense2K wfS16 wfG16 (hw1 X W1) (b1 B1) W2 (dinv EI) z16 (srcC EI) (dstC EI) i
                    * dinv EI (i 0))
                  (srcC EI)) (ix2 n c') * dinv EI n
              + B2 (ix1 c')) c)
    (hr : ∀ (n : Fin 100000) (c : Fin 7),
      Cert.ReferenceIdeal.GcnRef.refOut (F := Ideal) X EI W1 B1 W2 B2 (ix2 n c)
        = lsmRow (fun c' =>
            Host.scatterAdd (F := Ideal) (φ := .f32) (scatterRows 100000 7 3300000 wfS7) z7 (dstC EI)
                (mulf (F := Ideal) (nrm7 EI)
                  (Host.gather (rowDims 100000 7 3300000 wfG7)
                    (dense2R wfS16 wfG16 (hw1 X W1) (b1 B1) W2 z16 (srcC EI) (dstC EI) (nrm16 EI)) (srcC EI)))
                (ix2 n c')
              + B2 (ix1 c')) c) :
    Cert.KernelIdeal.GcnValue.kernelOut (F := Ideal) X EI W1 B1 W2 B2
      = Cert.ReferenceIdeal.GcnRef.refOut (F := Ideal) X EI W1 B1 W2 B2 := by
  funext i
  refine idx2_ind (A := 100000) (B := 7)
    (P := fun i => Cert.KernelIdeal.GcnValue.kernelOut (F := Ideal) X EI W1 B1 W2 B2 i
      = Cert.ReferenceIdeal.GcnRef.refOut (F := Ideal) X EI W1 B1 W2 B2 i) (fun n c => ?_) i
  refine (hk n c).trans (Eq.trans ?_ (hr n c).symm)
  refine congrArg (fun l => lsmRow l c) (funext fun c' => congrArg (· + B2 (ix1 c')) ?_)
  exact layer2_eq hN wfS16 wfG16 wfS7 wfG7 (hw1 X W1) (b1 B1) W2 (dinv EI) z16 z16_zero z7 z7_zero
    (srcC EI) (dstC EI) (nrm16 EI) (nrm7 EI) (hw1_real X W1 hX hW1) (b1_real B1 hB1) hW2 (dinv_real EI)
    (norm16 EI) (norm7 EI) n c'

end Cert.Gcn.MainEq

end
-- ==== Proof.lean ====
/-
  A two-layer graph convolution, as a three-region kernel and as a plain reference.

  Both programs build from the edge list the source and destination vectors (the edges, then one self loop per
  node), the node degrees and the per-node scale d = degree^(−1/2) (zero at a node no edge enters).  One layer of
  the reference is, for a dense product H = h·W,
      out[n,c] = Σ_{edges e into n} (d[src e] · d[dst e]) · H[src e, c] + b[c],
  the kernel's is
      out[n,c] = (Σ_{edges e into n} H[src e, c] · d[src e]) · d[n] + b[c]:
  the destination's factor d[dst e] = d[n] is the same for every edge into n and is taken out of the sum.  Over the
  extended reals that step needs every term to be a real number: the inputs are finite by the precondition, every d
  is real whatever the degree, and sums and products of reals are real.  The layers are followed by a clamp at zero
  and by a row-wise log-softmax, the same functions on both sides.  A change of float format is the identity at
  the exact reading, and each matrix product is the plain sum of products.

  The kernel's value is read off its run: the contents of every buffer at the boundaries between host operations
  and regions, each region's result array as the region's function of the arrays it read (the regions walk twenty
  row tiles of 5000 rows), and the bodies read at an index.  The reference's value is its run's composed term.
-/
import proofs.«116140_j87875030876683_2_alg».proof.Defs
import proofs.«116140_j87875030876683_2_alg».proof.Proof.Gen.Kernel
import proofs.«116140_j87875030876683_2_alg».proof.Proof.Gen.Kernel.Skeleton
import proofs.«116140_j87875030876683_2_alg».proof.Proof.Gen.Kernel.Launch
import proofs.«116140_j87875030876683_2_alg».proof.Proof.Gen.Kernel.Points
import proofs.«116140_j87875030876683_2_alg».proof.Proof.Gen.Kernel.Frame
import proofs.«116140_j87875030876683_2_alg».proof.Proof.Gen.KernelIdeal
import proofs.«116140_j87875030876683_2_alg».proof.Proof.Gen.KernelIdeal.Skeleton
import proofs.«116140_j87875030876683_2_alg».proof.Proof.Gen.KernelIdeal.Launch
import proofs.«116140_j87875030876683_2_alg».proof.Proof.Gen.KernelIdeal.Points
import proofs.«116140_j87875030876683_2_alg».proof.Proof.Gen.KernelIdeal.Frame
import proofs.«116140_j87875030876683_2_alg».proof.Proof.Gen.ReferenceIdeal
import proofs.«116140_j87875030876683_2_alg».proof.Proof.Gen.Pre_finite_inputs
import proofs.«116140_j87875030876683_2_alg».proof.Proof.KernelRun
import proofs.«116140_j87875030876683_2_alg».proof.Proof.KernelValue
import proofs.«116140_j87875030876683_2_alg».proof.Proof.RefValue
import proofs.«116140_j87875030876683_2_alg».proof.Proof.FiniteInputs
import proofs.«116140_j87875030876683_2_alg».proof.Proof.KernelEntry
import proofs.«116140_j87875030876683_2_alg».proof.Proof.RefEntry
import proofs.«116140_j87875030876683_2_alg».proof.Proof.MainEq
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run with the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.GcnRef.run' (F := Ideal) m ρ)

/-- The ideal pass rewrote nothing: there is nothing to preserve. -/
theorem preserves : Cert.preserves_Kernel_KernelIdeal := trivial

/-- From memories that agree on the six arguments, with finite float inputs, both idealized programs end with the
    same result array: the kernel's function of the arguments, which is the reference's. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.GcnValue.kernelOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnValue.result_eq m ρ c), (h c).2⟩)
      (Cert.KernelIdeal.GcnRun.run_result m ρ)
  · refine (θ_run Cert.ReferenceIdeal.defs _ _).mono (fun r h c => ⟨(h c).1.trans ?_, (h c).2⟩)
      (Cert.ReferenceIdeal.GcnRef.run' (F := Ideal) m' ρ')
    obtain ⟨a0, a1, a2, a3, a4, a5⟩ := hagree c
    rw [a0, a1, a2, a3, a4, a5]
    obtain ⟨hX, hW1, hB1, hW2, -⟩ := Cert.Gcn.Finite.reals_of_pre _ _ _ _ _ _ (hpre c)
    exact (Cert.Gcn.MainEq.main_eq_of _ _ _ _ _ _ hX hW1 hB1 hW2
      (Cert.Gcn.KernelEntry.kernel_entry _ _ _ _ _ _) (Cert.Gcn.RefEntry.ref_entry _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
